-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x128x128 : Shape := ⟨5, ![8, 32, 32, 128, 128]⟩
abbrev S_ : Shape := ⟨0, ![]⟩

class Facts : Prop where
  bcast_S_S8x32x32x128x128 : S_.BroadcastsInDim S8x32x32x128x128 (![] : Fin 0 → Fin S8x32x32x128x128.rank)
  reducesTo_S8x32x32x128x128_S_d0_1_2_3_4 : S8x32x32x128x128.ReducesTo [0, 1, 2, 3, 4] S_
  h_S_ : 0 < S_.numel

variable [Facts]

def fn {F : FTy → Type} [FloatOps F] (main_arg0 : FVec F S8x32x32x128x128 .f32) : IVec S_ 1 :=
  let main_v0 : FVec F S8x32x32x128x128 .f32 := Host.absf main_arg0
  let main_cst : FVec F S_ .f32 := constant S_ .f32 0x7F800000#32
  let main_v1 : FVec F S8x32x32x128x128 .f32 := broadcastInDim S8x32x32x128x128 ![] bcast_S_S8x32x32x128x128 main_cst
  let main_v2 : IVec S8x32x32x128x128 1 := cmpf .olt main_v0 main_v1
  let main_c : IVec S_ 1 := constantI S_ 1 1#1
  let main_v3 : IVec S_ 1 := (fun x v => Host.reduce IntOp.andi x v reducesTo_S8x32x32x128x128_S_d0_1_2_3_4 h_S_) main_v2 main_c
  main_v3
-- ==== Kernel.lean ====
abbrev S8x32x32x128x128 : Shape := ⟨5, ![8, 32, 32, 128, 128]⟩
abbrev S8x32x1x1 : Shape := ⟨4, ![8, 32, 1, 1]⟩
abbrev S1x8x32x128x128 : Shape := ⟨5, ![1, 8, 32, 128, 128]⟩
abbrev S1x32x1x1 : Shape := ⟨4, ![1, 32, 1, 1]⟩
abbrev S32x1x1 : Shape := ⟨3, ![32, 1, 1]⟩
abbrev S8x32x128x128 : Shape := ⟨4, ![8, 32, 128, 128]⟩
abbrev S32x128x128 : Shape := ⟨3, ![32, 128, 128]⟩
abbrev S32x128 : Shape := ⟨2, ![32, 128]⟩
abbrev S32x128x1 : Shape := ⟨3, ![32, 128, 1]⟩
abbrev S32x1 : Shape := ⟨2, ![32, 1]⟩
abbrev S1x4x32x128x128 : Shape := ⟨5, ![1, 4, 32, 128, 128]⟩
abbrev S4x32x128x128 : Shape := ⟨4, ![4, 32, 128, 128]⟩

abbrev nBuf : Space → Nat
  | .hbm => 3
  | .vmem => 11
  | .smem => 0
  | _ => 0

abbrev bufTy : (tb : Table) → Fin (tcTables nBuf tb) → BufTy
  | .hbm, ⟨0, _⟩ => ⟨S8x32x32x128x128, .f32⟩
  | .hbm, ⟨1, _⟩ => ⟨S8x32x1x1, .f32⟩
  | .hbm, ⟨2, _⟩ => ⟨S8x32x32x128x128, .f32⟩
  | .local _ .vmem, ⟨0, _⟩ => ⟨S1x8x32x128x128, .f32⟩
  | .local _ .vmem, ⟨1, _⟩ => ⟨S1x8x32x128x128, .f32⟩
  | .local _ .vmem, ⟨2, _⟩ => ⟨S1x32x1x1, .f32⟩
  | .local _ .vmem, ⟨3, _⟩ => ⟨S1x32x1x1, .f32⟩
  | .local _ .vmem, ⟨4, _⟩ => ⟨S32x1x1, .f32⟩
  | .local _ .vmem, ⟨5, _⟩ => ⟨S1x4x32x128x128, .f32⟩
  | .local _ .vmem, ⟨6, _⟩ => ⟨S1x4x32x128x128, .f32⟩
  | .local _ .vmem, ⟨7, _⟩ => ⟨S1x32x1x1, .f32⟩
  | .local _ .vmem, ⟨8, _⟩ => ⟨S1x32x1x1, .f32⟩
  | .local _ .vmem, ⟨9, _⟩ => ⟨S1x4x32x128x128, .f32⟩
  | .local _ .vmem, ⟨10, _⟩ => ⟨S1x4x32x128x128, .f32⟩
  | _, _ => ⟨S8x32x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_13 : BitVec 32 := 0#32
  let v17 : BitVec 1 := Scalar.cmpi .ne v16 c0_i32_13
  v17

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage1_0 : Fin 2 → Memref sig .tc .vmem S1x4x32x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4x32x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S32x1x1_S32x1x1_0_0_0 : ∀ a, (![0, 0, 0] : Fin 3 → Nat) a + S32x1x1.size a ≤ S32x1x1.size a
  h_S32x1x1 : 0 < S32x1x1.numel
  shapeCasts_S32x1x1_S32x1x1 : S32x1x1.ShapeCasts S32x1x1
  inb_S1x8x32x128x128_S1x8x32x128x128_0_0_0_0_0 : ∀ a, (![0, 0, 0, 0, 0] : Fin 5 → Nat) a + S1x8x32x128x128.size a ≤ S1x8x32x128x128.size a
  h_S1x8x32x128x128 : 0 < S1x8x32x128x128.numel
  shapeCasts_S1x8x32x128x128_S8x32x128x128 : S1x8x32x128x128.ShapeCasts S8x32x128x128
  reduces_S8x32x128x128_S32x128x128 : S8x32x128x128.Reduces [0] S32x128x128
  reduces_S32x128x128_S32x128 : S32x128x128.Reduces [2] S32x128
  shapeCasts_S32x128_S32x128x1 : S32x128.ShapeCasts S32x128x1
  reduces_S32x128x1_S32x1 : S32x128x1.Reduces [1] S32x1
  shapeCasts_S32x1_S32x1x1 : S32x1.ShapeCasts S32x1x1
  inb_S1x32x1x1_S1x32x1x1_0_0_0_0 : ∀ a, (![0, 0, 0, 0] : Fin 4 → Nat) a + S1x32x1x1.size a ≤ S1x32x1x1.size a
  h_S1x32x1x1 : 0 < S1x32x1x1.numel
  shapeCasts_S1x32x1x1_S32x1x1 : S1x32x1x1.ShapeCasts S32x1x1
  shapeCasts_S32x1x1_S1x32x1x1 : S32x1x1.ShapeCasts S1x32x1x1
  inb_S1x4x32x128x128_S1x4x32x128x128_0_0_0_0_0 : ∀ a, (![0, 0, 0, 0, 0] : Fin 5 → Nat) a + S1x4x32x128x128.size a ≤ S1x4x32x128x128.size a
  h_S1x4x32x128x128 : 0 < S1x4x32x128x128.numel
  shapeCasts_S1x4x32x128x128_S4x32x128x128 : S1x4x32x128x128.ShapeCasts S4x32x128x128
  broadcasts_S1x32x1x1_S4x32x128x128 : S1x32x1x1.Broadcasts S4x32x128x128
  shapeCasts_S4x32x128x128_S1x4x32x128x128 : S4x32x128x128.ShapeCasts S1x4x32x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x32x128x128.size a ≤ S8x32x32x128x128.size a
  hwx0_0 : ∀ i : grid0.Coords, EltTy.bits .f32 = 32 ∨ (Rect.block (s := S8x32x32x128x128) S1x8x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x1x1.size a ≤ S8x32x1x1.size a
  hwx0_1 : ∀ i : grid0.Coords, EltTy.bits .f32 = 32 ∨ (Rect.block (s := S8x32x1x1) S1x32x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x32x128x128.size a ≤ S8x32x32x128x128.size a
  hwx1_0 : ∀ i : grid1.Coords, EltTy.bits .f32 = 32 ∨ (Rect.block (s := S8x32x32x128x128) S1x4x32x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x1x1.size a ≤ S8x32x1x1.size a
  hwx1_1 : ∀ i : grid1.Coords, EltTy.bits .f32 = 32 ∨ (Rect.block (s := S8x32x1x1) S1x32x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x32x128x128.size a ≤ S8x32x32x128x128.size a
  hwx1_2 : ∀ i : grid1.Coords, EltTy.bits .f32 = 32 ∨ (Rect.block (s := S8x32x32x128x128) S1x4x32x128x128.size (cc1_transform_2 i) (hinb1_2 i)).WholeWords (EltTy.packing .f32)

variable [Facts₀]

abbrev win0_0 : Pipeline.Window sig grid0 :=
  Pipeline.Window.ofSpec (Memref.whole main_arg0) S1x8x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1x4x32x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x32x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4x32x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x32x32x128x128 : Shape := ⟨5, ![8, 32, 32, 128, 128]⟩
abbrev S_ : Shape := ⟨0, ![]⟩
abbrev S8x32 : Shape := ⟨2, ![8, 32]⟩
abbrev S8x1x32x1x1 : Shape := ⟨5, ![8, 1, 32, 1, 1]⟩

abbrev nBuf : Space → Nat
  | .hbm => 9
  | .vmem => 0
  | .smem => 0
  | _ => 0

abbrev bufTy : (tb : Table) → Fin (tcTables nBuf tb) → BufTy
  | .hbm, ⟨0, _⟩ => ⟨S8x32x32x128x128, .f32⟩
  | .hbm, ⟨1, _⟩ => ⟨S_, .f32⟩
  | .hbm, ⟨2, _⟩ => ⟨S8x32, .f32⟩
  | .hbm, ⟨3, _⟩ => ⟨S_, .f32⟩
  | .hbm, ⟨4, _⟩ => ⟨S8x32, .f32⟩
  | .hbm, ⟨5, _⟩ => ⟨S8x32, .f32⟩
  | .hbm, ⟨6, _⟩ => ⟨S8x1x32x1x1, .f32⟩
  | .hbm, ⟨7, _⟩ => ⟨S8x32x32x128x128, .f32⟩
  | .hbm, ⟨8, _⟩ => ⟨S8x32x32x128x128, .f32⟩
  | _, _ => ⟨S8x32x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  reducesTo_S8x32x32x128x128_S8x32_d1_3_4 : S8x32x32x128x128.ReducesTo [1, 3, 4] S8x32
  h_S_ : 0 < S_.numel
  bcast_S_S8x32 : S_.BroadcastsInDim S8x32 (![] : Fin 0 → Fin S8x32.rank)
  bcast_S8x32_S8x1x32x1x1_0_2 : S8x32.BroadcastsInDim S8x1x32x1x1 (![0, 2] : Fin 2 → Fin S8x1x32x1x1.rank)
  bcast_S8x1x32x1x1_S8x32x32x128x128_0_1_2_3_4 : S8x1x32x1x1.BroadcastsInDim S8x32x32x128x128 (![0, 1, 2, 3, 4] : Fin 5 → Fin S8x32x32x128x128.rank)

variable [Facts₀]

class Facts : Prop extends Facts₀ where

variable [Facts]
-- ==== Proof.Word.SumBody.lean ====
/-
  The reduction kernel's body, run on whole buffers, in each of its three cases.

  The first pallas_call walks a grid of 8 batches by 4 channel tiles. At a point it is handed one block of the
  input, x[b, 8·ct … 8·ct+7, ·, ·, ·], and keeps a column of 32 running sums (one per depth) in a scratch buffer
  that lives across the points of a batch. At the FIRST tile of a batch (ct = 0) it zeroes the column before
  adding the block's sums; at a MIDDLE tile (ct = 1, 2) it only adds; at the LAST tile (ct = 3) it adds and then
  writes the column, scaled, into the output block. The output block is stored at the last tile only, so at the
  other points its staging buffer is idle: handed back as it was found and not written back.

  For each case the body's triple is stated over arbitrary whole memrefs: the input block at its contents, the
  scratch column at what the point before left (at anything, for the first tile), and after the run the buffers the
  case stored into hold the pieces it wrote, last first. The pieces are found by running the body symbolically.
-/
import proofs.«145354_j15135464751187_2_alg».proof.Proof.Gen.Kernel.Launch
import proofs.«145354_j15135464751187_2_alg».proof.Proof.Gen.Kernel.Skeleton
import proofs.«145354_j15135464751187_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, in closed form over the grid -/

/-- The body's first `scf.if`: the point is the first channel tile of its batch. -/
abbrev atFirst (i : grid0.Coords) : Prop :=
  (Scalar.cmpi .ne (Scalar.extui (Scalar.cmpi .eq (BitVec.ofNat 32 (i 1).val) 0#32)) 0#32) = 1#1

/-- The body's second `scf.if`: the point is the last channel tile of its batch. -/
abbrev atLast (i : grid0.Coords) : Prop := k0_cond2 i = 1#1

/-- In row-major order the 32 points are numbered 4·b + ct: the first tiles are the points ≡ 0 (mod 4), -/
theorem atFirst_iff : ∀ t : Fin cfg0.N, atFirst (grid0.coords t) ↔ t.val % 4 = 0 :=
  (by decide +kernel : ∀ t : Fin grid0.N, atFirst (grid0.coords t) ↔ t.val % 4 = 0)

/-- and the last tiles the points ≡ 3 (mod 4). -/
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

/-- The input window is stored into nowhere, but it is never idle: it is read at every point. -/
theorem in_live : ∀ t : Fin cfg0.N, cfg0.idle 0 (grid0.coords t) = false := by decide +kernel
/-- Away from the last tile the output window is idle, -/
theorem out_idle : ∀ t : Fin cfg0.N, ¬atLast (grid0.coords t) → cfg0.idle 1 (grid0.coords t) = true := by decide +kernel
/-- and its block is not written back there; -/
theorem out_noFlush : ∀ t : Fin cfg0.N, ¬atLast (grid0.coords t) → (cfg0.win 1).flush t = false := by decide +kernel
/-- at the last tile it is live. -/
theorem out_live : ∀ t : Fin cfg0.N, atLast (grid0.coords t) → cfg0.idle 1 (grid0.coords t) = false := by decide +kernel

/-! ## The memrefs the pipeline calls the body with -/

/-- The staging memref the input block is in at point `t`, and the output block's. -/
abbrev inM (t : Fin cfg0.N) : Memref sig .tc .vmem S1x8x32x128x128 .f32 := win0_0.stage (cfg0.slots t 0)
abbrev inM_whole (t : Fin cfg0.N) : (inM t).IsWhole := hstage0_0 ((cfg0.slots t 0).cast nbuf0_0)
abbrev outM (t : Fin cfg0.N) : Memref sig .tc .vmem S1x32x1x1 .f32 := win0_1.stage (cfg0.slots t 1)
abbrev outM_whole (t : Fin cfg0.N) : (outM t).IsWhole := hstage0_1 ((cfg0.slots t 1).cast nbuf0_1)
/-- The scratch column: a whole scoped buffer of the kernel's own. -/
abbrev colM : Memref sig .tc .vmem S32x1x1 .f32 := Memref.whole cc0_scratch0
/-- The views through which the column's and the output block's contents are stated. -/
abbrev colV : View sig .tc .vmem S32x1x1 .f32 := colM.view
abbrev outV : View sig .tc .vmem S1x32x1x1 .f32 := (Memref.whole cc0_stg1_0 : Memref sig .tc .vmem S1x32x1x1 .f32).view

/-- The class invariant of the region — every scoped buffer no window stages at some contents, the generator register at
    some state — with the scratch column split off as a memref owned at some contents. -/
theorem classInv_eq (c : Dev nD) :
    (Pipeline.ΦA spec0 c : sProp 𝕄)
      = iprop(iprop((∃ d, owns (c : Thread nD τ) colM fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [colM, owns_whole]; try rfl

/-! ## The body's triple, case by case -/

set_option maxHeartbeats 1000000 in
/-- FIRST TILE. The column is zeroed, then the block's sums are added: the pieces the run leaves in the column, with the
    triple — the input block and the idle output buffer come back as they were. -/
noncomputable def runFirst (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : atFirst i) (h1 : ¬atLast i) (x0 : Vec F S1x8x32x128x128 .f32) :
    { LS : List (View.Piece (Elt F) S32x1x1 .f32) //
      ∀ (xi : Vec F S1x32x1x1 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨?_, fun xi E K => ?run⟩
  case run =>
    simp only [cc0__reduce_kernel_eq_skeleton]; unfold cc0__reduce_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- MIDDLE TILE. The column, found at what the point before left (`xs`), gets the block's sums added. -/
noncomputable def runMid (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : ¬atFirst i) (h1 : ¬atLast i) (x0 : Vec F S1x8x32x128x128 .f32) (xs : Vec F S32x1x1 .f32) :
    { LS : List (View.Piece (Elt F) S32x1x1 .f32) //
      ∀ (xi : Vec F S1x32x1x1 .f32) (E : Set ℕ) (K : PUnit → sProp 𝕄),
        iprop(owns (c : Thread nD τ) arg2 fullShare x0 ∗ owns (c : Thread nD τ) arg3 fullShare xi ∗ owns (c : Thread nD τ) arg4 fullShare xs
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨?_, fun xi E K => ?run⟩
  case run =>
    simp only [cc0__reduce_kernel_eq_skeleton]; unfold cc0__reduce_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg4.eq_unread hfs
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- LAST TILE. The column gets the block's sums added and is then written, scaled, into the output buffer, which is
    found at anything: the pieces left in the output buffer and in the column. -/
noncomputable def runLast (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : ¬atFirst i) (h1 : atLast i) (x0 : Vec F S1x8x32x128x128 .f32) (xs : Vec F S32x1x1 .f32) :
    Σ' (LO : List (View.Piece (Elt F) S1x32x1x1 .f32)), { LS : List (View.Piece (Elt F) S32x1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact h0 | exact h1)
    sl_step
    iapply Hk
    isplitl [H0]
    · iexists _; isplitr; · ipureintro; exact harg2.read_unread _
      iexact H0
    isplitl [H1]; · iexists _; iexact H1
    iexists _; iexact HS

end Cert.Kernel.Hand

end
-- ==== Proof.Word.SumRegion.lean ====
/-
  The reduction region's proof data: what the scratch column and the output buffer hold after every grid point.

  The region is entered with its arrays at contents `V`. Point t = 4·b + ct is handed block t of the input,
  x[b, 8·ct … 8·ct+7, ·, ·, ·]. The scratch column after point t is a function of that block and of the column
  before the point (`colStep`): at a first tile the column before is not read; at a middle or last tile it is what
  the point before left. So the column after each point is defined by recursion along the grid (`colAt`), and the
  region's invariant before a point that is not the very first says that the column holds exactly that. The output
  buffer is stored at last tiles only (`outStep`), from the column the point found.
-/
import proofs.«145354_j15135464751187_2_alg».proof.Proof.Gen.Kernel.Launch
import proofs.«145354_j15135464751187_2_alg».proof.Proof.Gen.Kernel.Skeleton
import proofs.«145354_j15135464751187_2_alg».proof.Proof.Gen.Kernel.Points
import proofs.«145354_j15135464751187_2_alg».proof.Proof.Word.SumBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def sumBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block at every point: a block that was not fetched anew is the
    block of the point before, which the body left in place. For any proof data over `V` whose body does so. -/
theorem in_before_of {c : Dev nD} (dat : Dat τ (Elt F) Unit ℕ (UR sig nD τ) ℕ cfg0 c) (hA : dat.A 0 = V c (Pipeline.arrRef spec0 0))
    (hafter : ∀ t, dat.after 0 t = sumBlk V c 0 t) (t : Fin cfg0.N) (d) : dat.before 0 t d = sumBlk V c 0 t := by
  have hblk : ∀ t, dat.blockOf 0 t = sumBlk V c 0 t := fun t => by unfold Dat.blockOf sumBlk; rw [hA]
  refine (dat.before_in_eq_fetched 0 rfl (fun _ => rfl) (fun _ _ _ => rfl) (fun t => ?_) t d).trans ?_
  · rw [hafter, hblk]
  · unfold Dat.fetched; rw [hblk]; rfl

/-! ## The pieces each case writes cover the buffer they are written into -/

theorem first_cover (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : atFirst i) (h1 : ¬atLast i) (x0 : Vec F S1x8x32x128x128 .f32) (y : S32x1x1.Idx) :
    ∃ pc ∈ (runFirst c i arg2 harg2 arg3 harg3 arg4 harg4 h0 h1 x0).1, y ∈ pc.1.set :=
  View.cover_of_tiledL (runFirst c i arg2 harg2 arg3 harg3 arg4 harg4 h0 h1 x0).1 S32x1x1.size (by sl_kernel_rfl) y

theorem mid_cover (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : ¬atFirst i) (h1 : ¬atLast i) (x0 : Vec F S1x8x32x128x128 .f32) (xs : Vec F S32x1x1 .f32) (y : S32x1x1.Idx) :
    ∃ pc ∈ (runMid c i arg2 harg2 arg3 harg3 arg4 harg4 h0 h1 x0 xs).1, y ∈ pc.1.set :=
  View.cover_of_tiledL (runMid c i arg2 harg2 arg3 harg3 arg4 harg4 h0 h1 x0 xs).1 S32x1x1.size (by sl_kernel_rfl) y

theorem last_cover_col (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : ¬atFirst i) (h1 : atLast i) (x0 : Vec F S1x8x32x128x128 .f32) (xs : Vec F S32x1x1 .f32) (y : S32x1x1.Idx) :
    ∃ pc ∈ (runLast c i arg2 harg2 arg3 harg3 arg4 harg4 h0 h1 x0 xs).2.1, y ∈ pc.1.set :=
  View.cover_of_tiledL (runLast c i arg2 harg2 arg3 harg3 arg4 harg4 h0 h1 x0 xs).2.1 S32x1x1.size (by sl_kernel_rfl) y

theorem last_cover_out (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : ¬atFirst i) (h1 : atLast i) (x0 : Vec F S1x8x32x128x128 .f32) (xs : Vec F S32x1x1 .f32) (y : S1x32x1x1.Idx) :
    ∃ pc ∈ (runLast c i arg2 harg2 arg3 harg3 arg4 harg4 h0 h1 x0 xs).1, y ∈ pc.1.set :=
  View.cover_of_tiledL (runLast c i arg2 harg2 arg3 harg3 arg4 harg4 h0 h1 x0 xs).1 S1x32x1x1.size (by sl_kernel_rfl) y

/-! ## One point -/

/-- The scratch column after the body at point `t`, from the column `prev` the point finds: the case's pieces read back.
    (A point is never both a first and a last tile; that arm is never reached.) -/
def colStep (c : Dev nD) (t : Fin cfg0.N) (prev : Vec F S32x1x1 .f32) : Vec F S32x1x1 .f32 :=
  if h0 : atFirst (grid0.coords t) then
    if h1 : atLast (grid0.coords t) then prev
    else colV.read (Elt F) (colV.writes (Elt F) colV.junk
      (runFirst c (grid0.coords t) (inM t) (inM_whole t) (outM t) (outM_whole t) colM (Memref.isWhole_whole _) h0 h1 (sumBlk V c 0 t)).1)
  else
    if h1 : atLast (grid0.coords t) then colV.read (Elt F) (colV.writes (Elt F) colV.junk
      (runLast c (grid0.coords t) (inM t) (inM_whole t) (outM t) (outM_whole t) colM (Memref.isWhole_whole _) h0 h1 (sumBlk V c 0 t) prev).2.1)
    else colV.read (Elt F) (colV.writes (Elt F) colV.junk
      (runMid c (grid0.coords t) (inM t) (inM_whole t) (outM t) (outM_whole t) colM (Memref.isWhole_whole _) h0 h1 (sumBlk V c 0 t) prev).1)

/-- The output buffer after the body at point `t`: stored at a last tile only (elsewhere a placeholder nothing reads:
    the window is idle there and not written back). -/
def outStep (c : Dev nD) (t : Fin cfg0.N) (prev : Vec F S32x1x1 .f32) : Vec F S1x32x1x1 .f32 :=
  if h0 : atFirst (grid0.coords t) then outV.read (Elt F) outV.junk
  else
    if h1 : atLast (grid0.coords t) then outV.read (Elt F) (outV.writes (Elt F) outV.junk
      (runLast c (grid0.coords t) (inM t) (inM_whole t) (outM t) (outM_whole t) colM (Memref.isWhole_whole _) h0 h1 (sumBlk V c 0 t) prev).1)
    else outV.read (Elt F) outV.junk

/-! ## Along the grid -/

/-- The column after the body at position `n`. -/
def colAt (c : Dev nD) : (n : ℕ) → n < cfg0.N → Vec F S32x1x1 .f32
  | 0, hn => colStep V c ⟨0, hn⟩ (colV.read (Elt F) colV.junk)
  | n + 1, hn => colStep V c ⟨n + 1, hn⟩ (colAt c n (Nat.lt_of_succ_lt hn))

/-- The column a point finds: what the point before left (before the very first point, anything). -/
def colBefore (c : Dev nD) : (n : ℕ) → n ≤ cfg0.N → Vec F S32x1x1 .f32
  | 0, _ => colV.read (Elt F) colV.junk
  | n + 1, hn => colAt V c n hn

theorem colAt_eq (c : Dev nD) (t : Fin cfg0.N) :
    colAt V c t.val t.isLt = colStep V c t (colBefore V c t.val (Nat.le_of_lt t.isLt)) := by
  obtain ⟨n, hn⟩ := t
  cases n <;> rfl

/-! ## The invariant -/

/-- The scoped buffers of the core other than this region's staging buffers and its column: the second region's
    staging buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem classInv_split (c : Dev nD) :
    (Pipeline.ΦA spec0 c : sProp 𝕄) = iprop(iprop((∃ d, owns (c : Thread nD τ) colM fullShare d) ∗ others c) ∗ (∃ r, prngReg c r)) := by
  unfold others; exact classInv_eq c

/-- Before position `n`: at the region's entry the class invariant (the column at anything); afterwards the column at
    what the point before left, the other scoped buffers at anything, the generator register at some state. -/
def inv (c : Dev nD) : (n : ℕ) → n ≤ cfg0.N → sProp 𝕄
  | 0, _ => Pipeline.ΦA spec0 c
  | n + 1, hn => iprop(iprop(owns (c : Thread nD τ) colM fullShare (colAt V c n hn) ∗ others c) ∗ (∃ r, prngReg c r))

theorem inv_pos (c : Dev nD) (n : ℕ) (h : n ≤ cfg0.N) (hz : n ≠ 0) :
    inv V c n h = iprop(iprop(owns (c : Thread nD τ) colM fullShare (colBefore V c n h) ∗ others c) ∗ (∃ r, prngReg c r)) := by
  cases n with
  | zero => exact absurd rfl hz
  | succ n => rfl

/-- Whatever the position, the invariant holds the column at SOME contents: enough for a first tile, and for leaving
    the region. -/
theorem inv_any (c : Dev nD) (n : ℕ) (h : n ≤ cfg0.N) :
    inv V c n h ⊢ (iprop(iprop((∃ d, owns (c : Thread nD τ) colM fullShare d) ∗ others c) ∗ (∃ r, prngReg c r)) : sProp 𝕄) := by
  cases n with
  | zero => rw [show inv V c 0 h = Pipeline.ΦA spec0 c from rfl, classInv_split]
  | succ n =>
    rw [show inv V c (n + 1) h = iprop(iprop(owns (c : Thread nD τ) colM fullShare (colAt V c n h) ∗ others c) ∗ (∃ r, prngReg c r)) from rfl]
    iintro ⟨⟨HS, Ho⟩, Hg⟩
    isplitl [HS Ho]
    · isplitl [HS]
      · iexists _; iexact HS
      iexact Ho
    iexact Hg

/-! ## The proof data -/

/-- The region's proof data on core `c`: the arrays as the region finds them; after the body at point `t` the input's
    buffer at its block and the output's at `outStep` of the column the point found; the invariant `inv`; nothing
    owed; full shares. -/
def sumDat (c : Dev nD) : Dat τ (Elt F) Unit ℕ (UR sig nD τ) ℕ cfg0 c where
  A w := V c (Pipeline.arrRef spec0 w)
  after w t := match w with
    | ⟨0, _⟩ => sumBlk V c 0 t
    | ⟨1, _⟩ => outStep V c t (colBefore V c t.val (Nat.le_of_lt t.isLt))
  Φ t := inv V c t.val (Nat.le_of_lt_succ t.isLt)
  q _ := fullShare
  owed _ := 0

theorem sumDat_A (c : Dev nD) (w : Fin cfg0.W) : (sumDat V c).A w = V c (Pipeline.arrRef spec0 w) := by
  dsimp only [sumDat]
theorem sumDat_after_in (c : Dev nD) (t : Fin cfg0.N) : (sumDat V c).after 0 t = sumBlk V c 0 t := by dsimp only [sumDat]
theorem sumDat_after_out (c : Dev nD) (t : Fin cfg0.N) :
    (sumDat V c).after 1 t = outStep V c t (colBefore V c t.val (Nat.le_of_lt t.isLt)) := by dsimp only [sumDat]
theorem sumDat_before_in (c : Dev nD) (t : Fin cfg0.N) (d) : (sumDat V c).before 0 t d = sumBlk V c 0 t :=
  in_before_of V (sumDat V c) (sumDat_A V c 0) (sumDat_after_in V c) t d
theorem sumDat_inv_start (c : Dev nD) (t : Fin cfg0.N) :
    (sumDat V c).Φ t.castSucc = inv V c t.val (Nat.le_of_lt t.isLt) := by
  dsimp only [sumDat]; simp only [Fin.coe_castSucc]

/-! ## The body obligation -/

set_option maxHeartbeats 4000000 in
/-- The body at any point. The input's buffer holds the point's block; the invariant hands the body the column — at
    what the point before left, which a middle or last tile reads, or at anything, which is enough for a first tile —
    and takes it back at this point's contents, the case's pieces covering it; an idle output buffer passes through
    untouched, a stored one comes back covered by its piece. Nothing is owed throughout. -/
theorem sum_body (c : Dev nD) (t : Fin cfg0.N) :
    iprop((sumDat V c).Φ t.castSucc ∗ (sumDat V c).owesAt () t.castSucc
      ∗ (∃ d, owns (c : Thread nD τ) (st0_0 t) fullShare ((sumDat V c).before 0 t d))
      ∗ (∃ d, owns (c : Thread nD τ) (st0_1 t) fullShare ((sumDat V c).before 1 t d)))
    ⊢ wp frame (wpE (defs₀ (F := F)) Variants.none c none) Set.univ (bodyAt0 t) (fun _ =>
      iprop((sumDat V c).Φ t.succ ∗ (sumDat V c).owesAt () t.succ
        ∗ (sumDat V c).leavesExact 0 t ∗ (sumDat V c).leavesExact 1 t)) := by
  unfold bodyAt0
  simp only [sumDat_before_in]
  rw [show (sumDat V c).owesAt () t.succ = (sumDat V c).owesAt () t.castSucc from rfl]
  rw [show (sumDat V c).Φ t.succ = iprop(iprop(owns (c : Thread nD τ) colM fullShare (colAt V c t.val t.isLt) ∗ others c) ∗ (∃ r, prngReg c r)) from rfl]
  rw [colAt_eq V c t, sumDat_inv_start V c t]
  rw [show (sumDat V c).leavesExact 0 t = owns (c : Thread nD τ) (st0_0 t) fullShare ((sumDat V c).after 0 t) from by
    unfold Dat.leavesExact; rw [in_live t], sumDat_after_in]
  have hN : t.val < 32 := lt_of_lt_of_eq t.isLt (show cfg0.N = 32 from N_0)
  by_cases h0 : atFirst (grid0.coords t)
  · have h1 : ¬atLast (grid0.coords t) := fun h => by
      have a := (atFirst_iff t).mp h0; have b := (atLast_iff t).mp h; omega
    rw [Dat.leavesExact_idle (sumDat V c) 1 t (out_idle t h1) (out_noFlush t h1)]
    unfold colStep; rw [dif_pos h0, dif_neg h1]
    iintro ⟨HΦ, Ho, ⟨%d0, H0⟩, ⟨%d1, H1⟩⟩
    ihave HΦ' := (inv_any V c _ _) $$ HΦ
    icases HΦ' with ⟨⟨HS, Hoth⟩, Hg⟩
    iapply ((runFirst c (grid0.coords t) _ _ _ _ _ _ h0 h1 (sumBlk V c 0 t)).2 _ Set.univ _)
    isplitl [H0]; · iexact H0
    isplitl [H1]; · iexact H1
    isplitl [HS]; · iexact HS
    iintro ⟨H0, H1, ⟨%es, HS⟩⟩
    isplitl [HS Hoth Hg]
    · isplitl [HS Hoth]
      · isplitl [HS]
        · unfold owns; iexists _; isplitr
          swap; · iexact HS
          ipureintro; exact View.read_writes_of_cover _ _ _ _ _ (first_cover c _ _ _ _ _ _ _ _ _ _)
        iexact Hoth
      iexact Hg
    isplitl [Ho]; · iexact Ho
    isplitl [H0]; · iexact H0
    iexists _; iexact H1
  · have hz : t.val ≠ 0 := fun e => h0 ((atFirst_iff t).mpr (by rw [e]))
    rw [inv_pos V c _ _ hz]
    by_cases h1 : atLast (grid0.coords t)
    · rw [show (sumDat V c).leavesExact 1 t = owns (c : Thread nD τ) (st0_1 t) fullShare ((sumDat V c).after 1 t) from by
        unfold Dat.leavesExact; rw [out_live t h1], sumDat_after_out]
      unfold colStep outStep; rw [dif_neg h0, dif_pos h1, dif_neg h0, dif_pos h1]
      iintro ⟨⟨⟨HS, Hoth⟩, Hg⟩, Ho, ⟨%d0, H0⟩, ⟨%d1, H1⟩⟩
      iapply ((runLast c (grid0.coords t) _ _ _ _ _ _ h0 h1 (sumBlk V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hoth Hg]
      · isplitl [HS Hoth]
        · isplitl [HS]
          · unfold owns; iexists _; isplitr
            swap; · iexact HS
            ipureintro; exact View.read_writes_of_cover _ _ _ _ _ (last_cover_col c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (last_cover_out c _ _ _ _ _ _ _ _ _ _ _)
    · rw [Dat.leavesExact_idle (sumDat V c) 1 t (out_idle t h1) (out_noFlush t h1)]
      unfold colStep; rw [dif_neg h0, dif_neg h1]
      iintro ⟨⟨⟨HS, Hoth⟩, Hg⟩, Ho, ⟨%d0, H0⟩, ⟨%d1, H1⟩⟩
      iapply ((runMid c (grid0.coords t) _ _ _ _ _ _ h0 h1 (sumBlk V c 0 t) _).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (mid_cover c _ _ _ _ _ _ _ _ _ _ _)
          iexact Hoth
        iexact Hg
      isplitl [Ho]; · iexact Ho
      isplitl [H0]; · iexact H0
      iexists _; iexact H1

/-- The library's body obligation, at every point. -/
theorem sum_obligation (c : Dev nD) : BodyObligation (sumDat (F := F) V c) (defs₀ (F := F)) Variants.none () Set.univ := fun t => by
  rw [bigSep_W0, bigSep_W0]
  exact sum_body V c t

/-! ## Entering and leaving the region -/

/-- What the launch hands the region is the invariant before the first point. -/
theorem sum_enter (c : Dev nD) : Pipeline.ΦA spec0 c ⊢ (sumDat V c).Φ 0 := by
  rw [show (sumDat V c).Φ 0 = Pipeline.ΦA spec0 c from rfl]

/-- After the last point the invariant gives the class invariant back: the column's contents are forgotten. -/
theorem sum_leave (c : Dev nD) : (sumDat V c).Φ (Fin.last cfg0.N) ⊢ Pipeline.ΦA spec0 c := by
  rw [show (sumDat V c).Φ (Fin.last cfg0.N) = inv V c (Fin.last cfg0.N).val (Nat.le_of_lt_succ (Fin.last cfg0.N).isLt) from rfl, classInv_split]
  exact inv_any V c _ _

end Cert.Kernel.Hand

end
-- ==== Proof.Word.MulRegion.lean ====
/-
  The multiplying call of the program, one grid point at a time.

  The call walks an 8 × 8 grid. At point (i, j) it is handed three staging buffers: one holding block (i, j) —
  extents [1,4,32,128,128] — of the first operand, one holding the [1,32,1,1] column of per-channel factors of
  row i, and one that receives block (i, j) of the result. Its body reads the column and the operand's block
  whole, multiplies every element of the block by the factor of its channel, and overwrites the result's
  buffer whole with the products.

  Everything below is stated at arbitrary contents `V` of the core's arrays at the moment the call begins, and at
  an arbitrary float model `F`:
  * `mulBlk`: the block a window selects from its array at a grid point;
  * `mulOut`: what the body leaves in the result's buffer, as a function of the two blocks it read;
  * `mul_triple`: run on any three whole buffers, the body hands back the two it read unchanged and the third
    holding `mulOut` of them;
  * `mulDat`: what each staging buffer holds after the body at each point; a buffer the body only reads holds its
    window's block at EVERY point, also where no block was brought in because the window had not moved
    (the column's window moves only when i does: at one point in eight);
  * `mul_obligation`: at every grid point the body does what the pipelined loop around it asks of it.
-/
import proofs.«145354_j15135464751187_2_alg».proof.Proof.Gen.Kernel.Launch
import proofs.«145354_j15135464751187_2_alg».proof.Proof.Gen.Kernel.Skeleton
import proofs.«145354_j15135464751187_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what each of the core's arrays holds when the multiplying call begins
variable (V : (c : Dev nD) → (b : Ref sig .tc) → Buf (Elt F) ((c : Thread nD τ).loc b))

/-! ## Blocks -/

/-- The slice of window `w`'s array that grid point `t` selects, the array holding what it held when the
    multiplying call began. -/
def mulBlk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The rectangles the body reads and writes: each is a whole buffer -/

/-- All of a [1,4,32,128,128] buffer: unit strides from the origin, the buffer's own extents. -/
abbrev rBlock : Rect S1x4x32x128x128 :=
  Rect.unit (s := S1x4x32x128x128) ![0, 0, 0, 0, 0] S1x4x32x128x128.size inb_S1x4x32x128x128_S1x4x32x128x128_0_0_0_0_0

/-- All of a [1,32,1,1] buffer. -/
abbrev rCol : Rect S1x32x1x1 :=
  Rect.unit (s := S1x32x1x1) ![0, 0, 0, 0] S1x32x1x1.size inb_S1x32x1x1_S1x32x1x1_0_0_0_0

/-- A unit-stride rectangle that starts at the origin and has the shape's own extents holds every index of the
    shape: on each axis, coordinate `y a` is the `y a`-th of the rectangle's. -/
theorem mem_origin_rect {s : Shape} (off : Fin s.rank → ℕ) (h0 : ∀ a, off a = 0)
    (inb : ∀ a, off a + s.size a ≤ s.size a) (y : s.Idx) : y ∈ (Rect.unit off s.size inb).set :=
  (LoadRect.mem_set _).mpr fun a => ⟨(y a).val, (y a).isLt, by
    show ((y a : ℕ)) = off a + 1 * (y a).val
    rw [h0 a, Nat.zero_add, Nat.one_mul]⟩

/-! ## What the body leaves in the result's buffer -/

/-- The result's staging buffer after the body, from the operand's block `x0` and the factors' column `x1`: the
    products, written over the whole buffer in one piece. -/
def mulOut (x0 : Vec F S1x4x32x128x128 .f32) (x1 : Vec F S1x32x1x1 .f32) : Vec F S1x4x32x128x128 .f32 :=
  View.canon [⟨rBlock, k1_pay1 (View.ld x1 rCol) (View.ld x0 rBlock)⟩]

/-- That one piece covers the buffer, whatever it carries: its rectangle is the whole shape. -/
theorem mulOut_cover (p : Vec F S1x4x32x128x128 .f32) (y : S1x4x32x128x128.Idx) :
    ∃ pc ∈ ([⟨rBlock, p⟩] : List (View.Piece (Elt F) S1x4x32x128x128 .f32)), y ∈ pc.1.set :=
  ⟨⟨rBlock, p⟩, List.mem_singleton.mpr rfl,
    mem_origin_rect _ (fun a => by fin_cases a <;> rfl) inb_S1x4x32x128x128_S1x4x32x128x128_0_0_0_0_0 y⟩

/-! ## The body on three whole buffers -/

/-- The body of the multiplying call, on whole buffers `arg2` reading `x0`, `arg3` reading `x1` and `arg4` holding
    anything, at any grid coordinates: it reaches its continuation with `arg2` and `arg3` reading what they read and
    `arg4` reading `mulOut x0 x1`. The two loads read `x1` and `x0` through the whole-buffer rectangles; the load of
    `arg4` is unused; the single store writes the products over all of `arg4`, so what was there before does not
    show (`mulOut_cover`). -/
theorem mul_triple (c : Dev nD) (E : Set ℕ) (i : grid1.Coords)
    (arg2 : Memref sig .tc .vmem S1x4x32x128x128 .f32) (harg2 : arg2.IsWhole)
    (arg3 : Memref sig .tc .vmem S1x32x1x1 .f32) (harg3 : arg3.IsWhole)
    (arg4 : Memref sig .tc .vmem S1x4x32x128x128 .f32) (harg4 : arg4.IsWhole)
    (x0 : Vec F S1x4x32x128x128 .f32) (x1 : Vec F S1x32x1x1 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (mulOut x0 x1)) -∗ K ⟨⟩))
      ⊢ wp frame (wpE (defs₀ (F := F)) Variants.none c none) E
          (cc1__mul_kernel i arg2 harg2 arg3 harg3 arg4 harg4) K := by
  rw [cc1__mul_kernel_eq_skeleton]
  unfold cc1__mul_kernel_skel owns
  iintro ⟨⟨%f0, %e0, H0⟩, ⟨%f1, %e1, H1⟩, ⟨%d, %f2, -, H2⟩, Hk⟩
  subst e0 e1
  sl_exec
  sl_step
  iapply Hk
  isplitl [H0]
  · iexists f0
    isplitr
    · ipureintro; rfl
    · iexact H0
  isplitl [H1]
  · iexists f1
    isplitr
    · ipureintro; rfl
    · iexact H1
  iexists arg4.view.writes (Elt F) f2
    [⟨rBlock, k1_pay1 (View.ld (arg3.view.read (Elt F) f1) rCol) (View.ld (arg2.view.read (Elt F) f0) rBlock)⟩]
  isplitr
  · ipureintro
    exact View.read_writes_eq_canon _ _ _ (mulOut_cover _)
  · iexact H2

/-! ## The staging buffers, point by point -/

/-- The proof data of the multiplying call on core `c`: the arrays at `V`; after the body at point `t` the two buffers
    it only reads hold their windows' blocks still, and the result's holds `mulOut` of those two blocks; the body
    keeps nothing else from point to point, owes nothing and holds its arrays outright. -/
def mulDat (c : Dev nD) : Dat τ (Elt F) Unit ℕ (UR sig nD τ) ℕ cfg1 c where
  A w := V c (Pipeline.arrRef spec1 w)
  after w t := match w with
    | ⟨0, _⟩ => mulBlk V c 0 t
    | ⟨1, _⟩ => mulBlk V c 1 t
    | ⟨2, _⟩ => mulOut (mulBlk V c 0 t) (mulBlk V c 1 t)
  Φ _ := Pipeline.ΦA spec1 c
  q _ := fullShare
  owed _ := 0

/-- Its arrays are the entry contents. -/
theorem mulDat_A (c : Dev nD) (w : Fin cfg1.W) : (mulDat V c).A w = V c (Pipeline.arrRef spec1 w) := by
  dsimp only [mulDat]

/-- What the body leaves, window by window. -/
theorem mulDat_after0 (c : Dev nD) (t : Fin cfg1.N) : (mulDat V c).after 0 t = mulBlk V c 0 t := by
  dsimp only [mulDat]
theorem mulDat_after1 (c : Dev nD) (t : Fin cfg1.N) : (mulDat V c).after 1 t = mulBlk V c 1 t := by
  dsimp only [mulDat]
theorem mulDat_after2 (c : Dev nD) (t : Fin cfg1.N) :
    (mulDat V c).after 2 t = mulOut (mulBlk V c 0 t) (mulBlk V c 1 t) := by
  dsimp only [mulDat]

/-- The operand's staging buffer holds the operand's block at every point. The body leaves that block where it
    found it, so the buffer holds a block of the window's at every point; and it is THIS point's block, for where
    the loop brings no new block in the window selects the block it selected at the point before. -/
theorem mulDat_before0 (c : Dev nD) (t : Fin cfg1.N) (d) : (mulDat V c).before 0 t d = mulBlk V c 0 t := by
  have hkeep : ∀ t', (cfg1.win 0).cut (cfg1.grid.coords t') ((mulDat V c).after 0 t') = (mulDat V c).blockOf 0 t' := by
    intro t'
    rw [mulDat_after0]
    unfold Dat.blockOf mulBlk
    rw [mulDat_A]
  rw [(mulDat V c).before_in_eq_fetched 0 rfl (fun _ => rfl) (fun _ _ _ => rfl) hkeep t d]
  unfold Dat.fetched Dat.blockOf mulBlk
  rw [mulDat_A]
  rfl

/-- The same of the factors' staging buffer, which is filled only at the first point of each grid row (j = 0): the
    seven points that follow find in it the column the first one found, and theirs is that column, the window's
    block depending on i alone. -/
theorem mulDat_before1 (c : Dev nD) (t : Fin cfg1.N) (d) : (mulDat V c).before 1 t d = mulBlk V c 1 t := by
  have hkeep : ∀ t', (cfg1.win 1).cut (cfg1.grid.coords t') ((mulDat V c).after 1 t') = (mulDat V c).blockOf 1 t' := by
    intro t'
    rw [mulDat_after1]
    unfold Dat.blockOf mulBlk
    rw [mulDat_A]
  rw [(mulDat V c).before_in_eq_fetched 1 rfl (fun _ => rfl) (fun _ _ _ => rfl) hkeep t d]
  unfold Dat.fetched Dat.blockOf mulBlk
  rw [mulDat_A]
  rfl

/-! ## The body at a grid point -/

/-- The body as the loop calls it at point `t`, on the three buffers current there. It is handed the loop's
    invariant, what the core owes, and each buffer at what it then holds: the two it reads at their windows' blocks
    (`mulDat_before0`, `mulDat_before1`), the result's at anything. `mul_triple` at those blocks returns the three
    buffers at what `mulDat` says the body leaves; the invariant and the debt, which do not depend on the point and
    which the body does not touch, pass through. -/
theorem mul_point (c : Dev nD) (t : Fin cfg1.N) :
    iprop((mulDat V c).Φ t.castSucc ∗ (mulDat V c).owesAt () t.castSucc
        ∗ (∃ d, owns (c : Thread nD τ) (st1_0 t) fullShare ((mulDat V c).before 0 t d))
        ∗ (∃ d, owns (c : Thread nD τ) (st1_1 t) fullShare ((mulDat V c).before 1 t d))
        ∗ (∃ d, owns (c : Thread nD τ) (st1_2 t) fullShare ((mulDat V c).before 2 t d)))
      ⊢ wp frame (wpE (defs₀ (F := F)) Variants.none c none) Set.univ (bodyAt1 t) fun _ =>
          iprop((mulDat V c).Φ t.succ ∗ (mulDat V c).owesAt () t.succ
            ∗ owns (c : Thread nD τ) (st1_0 t) fullShare ((mulDat V c).after 0 t)
            ∗ owns (c : Thread nD τ) (st1_1 t) fullShare ((mulDat V c).after 1 t)
            ∗ owns (c : Thread nD τ) (st1_2 t) fullShare ((mulDat V c).after 2 t)) := by
  have hΦ : (mulDat V c).Φ t.succ = (mulDat V c).Φ t.castSucc := rfl
  have hO : (mulDat V c).owesAt () t.succ = (mulDat V c).owesAt () t.castSucc := rfl
  rw [hΦ, hO, mulDat_after0, mulDat_after1, mulDat_after2]
  simp only [mulDat_before0, mulDat_before1]
  iintro ⟨HΦ, HO, ⟨%d0, Hx⟩, ⟨%d1, Hs⟩, Hy⟩
  iapply (mul_triple c Set.univ (grid1.coords t) _ _ _ _ _ _ (mulBlk V c 0 t) (mulBlk V c 1 t) _)
  isplitl [Hx]
  · iexact Hx
  isplitl [Hs]
  · iexact Hs
  isplitl [Hy]
  · icases Hy with ⟨%d2, Hy⟩
    iexists _
    iexact Hy
  iintro ⟨Hx, Hs, Hy⟩
  isplitl [HΦ]
  · iexact HΦ
  isplitl [HO]
  · iexact HO
  isplitl [Hx]
  · iexact Hx
  isplitl [Hs]
  · iexact Hs
  iexact Hy

/-- So the body meets the loop's obligation at every point: the obligation's conjunction over the three windows,
    written out, is `mul_point`. -/
theorem mul_obligation (c : Dev nD) :
    BodyObligation (mulDat (F := F) V c) (defs₀ (F := F)) Variants.none () Set.univ := by
  intro t
  rw [bigSep_W1, bigSep_W1]
  exact mul_point V c t

end Cert.Kernel.Hand

end
-- ==== Proof.Word.MainRun.lean ====
/-
  The whole program's run: the two pallas_calls one after the other.

  @main is the reduction region followed by the multiplication region, with no host operation between or around
  them. The buffers' contents are followed through the two regions: at launch (`W0`); after the reduction, its
  output array main_v0 at what its write-backs leave and everything else as launched (`W1`); after the
  multiplication, its output array main_v1 at what its write-backs leave and everything else as it was (`W2`).
  Each region is entered holding every unscoped buffer at the contents of the boundary before it, the generator
  register at some state and nothing owed, and is left holding the same at the boundary after it. Every weakly fair
  execution therefore terminates with every unscoped buffer at `W2`: the argument as launched, the result at the
  multiplication region's final array.
-/
import proofs.«145354_j15135464751187_2_alg».proof.Proof.Gen.Kernel.Launch
import proofs.«145354_j15135464751187_2_alg».proof.Proof.Gen.Kernel.Skeleton
import proofs.«145354_j15135464751187_2_alg».proof.Proof.Gen.Kernel.Points
import proofs.«145354_j15135464751187_2_alg».proof.Proof.Word.SumRegion
import proofs.«145354_j15135464751187_2_alg».proof.Proof.Word.MulRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the three boundaries -/

/-- Core `c`'s buffers at launch, -/
abbrev W0 : Dev nD → Valuation τ sig (Elt F) := fun c b => m (c, b)
/-- read at the TensorCore's references: what the reduction region's proof data take. -/
abbrev E0 : (c : Dev nD) → (b : Ref sig .tc) → Buf (Elt F) ((c : Thread nD τ).loc b) := fun c b => W0 m c b

/-- After the reduction region: its arrays at what the pipeline leaves, every other buffer as entered. -/
def W1 (c : Dev nD) : Valuation τ sig (Elt F) :=
  Pipeline.withArrays spec0 c (W0 m c) fun w => (sumDat (E0 m) c).arrAt w cfg0.N
abbrev E1 : (c : Dev nD) → (b : Ref sig .tc) → Buf (Elt F) ((c : Thread nD τ).loc b) := fun c b => W1 m c b

theorem W1_arr (c : Dev nD) (w : Fin cfg0.W) :
    W1 m c (Proc.devRef .tc (Pipeline.arrRef spec0 w)) = (sumDat (E0 m) c).arrAt w cfg0.N := by
  unfold W1; exact Pipeline.withArrays_arr spec0 launch0.win.arr_inj c _ _ w
theorem W1_other (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

/-- After the multiplication region: its arrays at what the pipeline leaves, every other buffer as entered. -/
def W2 (c : Dev nD) : Valuation τ sig (Elt F) :=
  Pipeline.withArrays spec1 c (W1 m c) fun w => (mulDat (E1 m) c).arrAt w cfg1.N
abbrev E2 : (c : Dev nD) → (b : Ref sig .tc) → Buf (Elt F) ((c : Thread nD τ).loc b) := fun c b => W2 m c b

theorem W2_arr (c : Dev nD) (w : Fin cfg1.W) :
    W2 m c (Proc.devRef .tc (Pipeline.arrRef spec1 w)) = (mulDat (E1 m) c).arrAt w cfg1.N := by
  unfold W2; exact Pipeline.withArrays_arr spec1 launch1.win.arr_inj c _ _ w
theorem W2_other (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

/-! ## What the boundaries hold at the program's three arrays -/

/-- The argument is an input of both regions: neither changes it. -/
theorem E1_arg (c : Dev nD) : E1 m c main_arg0 = m ((c : Thread nD τ).loc main_arg0) :=
  (W1_arr m c 0).trans (((sumDat (E0 m) c).arrAt_in 0 rfl _).trans (sumDat_A (E0 m) c 0))
theorem E2_arg (c : Dev nD) : E2 m c main_arg0 = m ((c : Thread nD τ).loc main_arg0) :=
  (W2_arr m c 0).trans ((((mulDat (E1 m) c).arrAt_in 0 rfl _).trans (mulDat_A (E1 m) c 0)).trans (E1_arg m c))
/-- The column of means is the reduction region's output, -/
theorem E1_col (c : Dev nD) : E1 m c main_v0 = (sumDat (E0 m) c).arrAt 1 cfg0.N := W1_arr m c 1
/-- and the result the multiplication region's. -/
theorem E2_res (c : Dev nD) : E2 m c main_v1 = (mulDat (E1 m) c).arrAt 2 cfg1.N := W2_arr m c 2

/-! ## The proof data family and the thread state -/

/-- No pallas_call has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => sumDat (E0 m) c
  | ⟨1, _⟩ => fun c => mulDat (E1 m) c

/-- No core owes another anything: no level is assigned. -/
abbrev noLevels : GSem nD τ sig → Finset Unit := fun _ => ∅
abbrev levelOf : GSem nD τ sig → Unit → ℕ := fun _ _ => 0

/-- What rides beside the buffers: the generator register at some state and the core owing nothing. -/
abbrev beside (c : Dev nD) : sProp 𝕄 := iprop((∃ r, prngReg c r) ∗ ∃ W, owes (c : Thread nD τ) (0 : CellTallies nD τ sig Unit) W)

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE REDUCTION REGION: entered from every unscoped buffer at `W0`, left at `W1`. Its arrays are split out of the
    unscoped buffers and put back at the exit contents; the generator register goes into the invariant and comes back;
    the invariant starts as the class's and ends by forgetting the column; nothing owed; no semaphore of the kernel's own. -/
def sumSeg : Pipeline.RegionSeg (pcfgs (F := F)) adm (pdats m) () defs₀ Variants.none noLevels levelOf 0 where
  win := launch0.win.to₀
  block_pos := launch0.block_pos
  stage_whole := launch0.stage_whole
  K := PEmpty
  osem k := k.elim
  ho := Pipeline.OwnSemFacts.none _
  hbody c := (sum_obligation (E0 m) c).loose
  hwaits := Pipeline.hwaits_of_owed_zero _ _ _ _ noLevels levelOf 0 fun _ _ => rfl
  pre c := iprop(StableHlo.held (c : Thread nD τ) (Pipeline.ucRefs τ sig) (W0 m c) ∗ beside c)
  post c := iprop(StableHlo.held (c : Thread nD τ) (Pipeline.ucRefs τ sig) (W1 m c) ∗ beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from sum_leave (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (fun w => (W1_arr m c w).symm)
      (fun b hb => W1_other m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE MULTIPLICATION REGION: entered from every unscoped buffer at `W1`, left at `W2`; its invariant is the class's
    throughout. -/
def mulSeg : Pipeline.RegionSeg (pcfgs (F := F)) adm (pdats m) () defs₀ Variants.none noLevels levelOf 1 where
  win := launch1.win.to₀
  block_pos := launch1.block_pos
  stage_whole := launch1.stage_whole
  K := PEmpty
  osem k := k.elim
  ho := Pipeline.OwnSemFacts.none _
  hbody c := (mul_obligation (E1 m) c).loose
  hwaits := Pipeline.hwaits_of_owed_zero _ _ _ _ noLevels levelOf 1 fun _ _ => rfl
  pre c := iprop(StableHlo.held (c : Thread nD τ) (Pipeline.ucRefs τ sig) (W1 m c) ∗ beside c)
  post c := iprop(iprop(StableHlo.held (c : Thread nD τ) (Pipeline.ucRefs τ sig) (W2 m c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (fun w => (W2_arr m c w).symm)
      (fun b hb => W2_other m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

set_option backward.isDefEq.respectTransparency.types false in
/-- At the compiled mesh, from any memory with zero counters, every weakly fair execution of @main terminates, nothing
    faulting, and in every final state the result array holds what the multiplication region's write-backs leave and
    the argument array what it held at launch. -/
theorem run : θ_run defs (onTc (τ := τ) (main (F := F))) ⟨m, fun _ => 0, ρ⟩ (fun r => ∀ c : Dev nD,
      r.2.mem ((c.tc : Thread nD τ).loc main_v1) = (mulDat (E1 m) c).arrAt 2 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ Variants.none noLevels levelOf m ρ main
    [.region (sumSeg m), .region (mulSeg m)]
    (fun c Q => by rw [main_segs adm (pdats m) () Variants.none noLevels levelOf (sumSeg m) (mulSeg m) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c))
    (Tₙ := fun c => iprop(StableHlo.held (c : Thread nD τ) (Pipeline.ucRefs τ sig) (W2 m c) ∗ ∃ r, prngReg c r))
    (hch := ⟨fun _ => .rfl, fun _ => .rfl, fun _ => .rfl⟩)
    (hinit := by
      refine Pipeline.initEach noLevels levelOf fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_unscoped main_v1 (by decide))).trans (E2_res m c),
       (h c _ (mem_unscoped main_arg0 (by decide))).trans (E2_arg m c)⟩)

/-- The frame claim: the program runs and its argument ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.Kernel.Hand

end
-- ==== Proof.SumBody.lean ====
/-
  The reduction kernel's body, run on whole buffers, in each of its three cases.

  The first pallas_call walks a grid of 8 batches by 4 channel tiles. At a point it is handed one block of the
  input, x[b, 8·ct … 8·ct+7, ·, ·, ·], and keeps a column of 32 running sums (one per depth) in a scratch buffer
  that lives across the points of a batch. At the FIRST tile of a batch (ct = 0) it zeroes the column before
  adding the block's sums; at a MIDDLE tile (ct = 1, 2) it only adds; at the LAST tile (ct = 3) it adds and then
  writes the column, scaled, into the output block. The output block is stored at the last tile only, so at the
  other points its staging buffer is idle: handed back as it was found and not written back.

  For each case the body's triple is stated over arbitrary whole memrefs: the input block at its contents, the
  scratch column at what the point before left (at anything, for the first tile), and after the run the buffers the
  case stored into hold the pieces it wrote, last first. The pieces are found by running the body symbolically.
-/
import proofs.«145354_j15135464751187_2_alg».proof.Proof.Gen.KernelIdeal.Launch
import proofs.«145354_j15135464751187_2_alg».proof.Proof.Gen.KernelIdeal.Skeleton
import proofs.«145354_j15135464751187_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, in closed form over the grid -/

/-- The body's first `scf.if`: the point is the first channel tile of its batch. -/
abbrev atFirst (i : grid0.Coords) : Prop :=
  (Scalar.cmpi .ne (Scalar.extui (Scalar.cmpi .eq (BitVec.ofNat 32 (i 1).val) 0#32)) 0#32) = 1#1

/-- The body's second `scf.if`: the point is the last channel tile of its batch. -/
abbrev atLast (i : grid0.Coords) : Prop := k0_cond2 i = 1#1

/-- In row-major order the 32 points are numbered 4·b + ct: the first tiles are the points ≡ 0 (mod 4), -/
theorem atFirst_iff : ∀ t : Fin cfg0.N, atFirst (grid0.coords t) ↔ t.val % 4 = 0 :=
  (by decide +kernel : ∀ t : Fin grid0.N, atFirst (grid0.coords t) ↔ t.val % 4 = 0)

/-- and the last tiles the points ≡ 3 (mod 4). -/
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

/-- The input window is stored into nowhere, but it is never idle: it is read at every point. -/
theorem in_live : ∀ t : Fin cfg0.N, cfg0.idle 0 (grid0.coords t) = false := by decide +kernel
/-- Away from the last tile the output window is idle, -/
theorem out_idle : ∀ t : Fin cfg0.N, ¬atLast (grid0.coords t) → cfg0.idle 1 (grid0.coords t) = true := by decide +kernel
/-- and its block is not written back there; -/
theorem out_noFlush : ∀ t : Fin cfg0.N, ¬atLast (grid0.coords t) → (cfg0.win 1).flush t = false := by decide +kernel
/-- at the last tile it is live. -/
theorem out_live : ∀ t : Fin cfg0.N, atLast (grid0.coords t) → cfg0.idle 1 (grid0.coords t) = false := by decide +kernel

/-! ## The memrefs the pipeline calls the body with -/

/-- The staging memref the input block is in at point `t`, and the output block's. -/
abbrev inM (t : Fin cfg0.N) : Memref sig .tc .vmem S1x8x32x128x128 .f32 := win0_0.stage (cfg0.slots t 0)
abbrev inM_whole (t : Fin cfg0.N) : (inM t).IsWhole := hstage0_0 ((cfg0.slots t 0).cast nbuf0_0)
abbrev outM (t : Fin cfg0.N) : Memref sig .tc .vmem S1x32x1x1 .f32 := win0_1.stage (cfg0.slots t 1)
abbrev outM_whole (t : Fin cfg0.N) : (outM t).IsWhole := hstage0_1 ((cfg0.slots t 1).cast nbuf0_1)
/-- The scratch column: a whole scoped buffer of the kernel's own. -/
abbrev colM : Memref sig .tc .vmem S32x1x1 .f32 := Memref.whole cc0_scratch0
/-- The views through which the column's and the output block's contents are stated. -/
abbrev colV : View sig .tc .vmem S32x1x1 .f32 := colM.view
abbrev outV : View sig .tc .vmem S1x32x1x1 .f32 := (Memref.whole cc0_stg1_0 : Memref sig .tc .vmem S1x32x1x1 .f32).view

/-- The class invariant of the region — every scoped buffer no window stages at some contents, the generator register at
    some state — with the scratch column split off as a memref owned at some contents. -/
theorem classInv_eq (c : Dev nD) :
    (Pipeline.ΦA spec0 c : sProp 𝕄)
      = iprop(iprop((∃ d, owns (c : Thread nD τ) colM fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [colM, owns_whole]; try rfl

/-! ## The body's triple, case by case -/

set_option maxHeartbeats 1000000 in
/-- FIRST TILE. The column is zeroed, then the block's sums are added: the pieces the run leaves in the column, with the
    triple — the input block and the idle output buffer come back as they were. -/
noncomputable def runFirst (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : atFirst i) (h1 : ¬atLast i) (x0 : Vec F S1x8x32x128x128 .f32) :
    { LS : List (View.Piece (Elt F) S32x1x1 .f32) //
      ∀ (xi : Vec F S1x32x1x1 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨?_, fun xi E K => ?run⟩
  case run =>
    simp only [cc0__reduce_kernel_eq_skeleton]; unfold cc0__reduce_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- MIDDLE TILE. The column, found at what the point before left (`xs`), gets the block's sums added. -/
noncomputable def runMid (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : ¬atFirst i) (h1 : ¬atLast i) (x0 : Vec F S1x8x32x128x128 .f32) (xs : Vec F S32x1x1 .f32) :
    { LS : List (View.Piece (Elt F) S32x1x1 .f32) //
      ∀ (xi : Vec F S1x32x1x1 .f32) (E : Set ℕ) (K : PUnit → sProp 𝕄),
        iprop(owns (c : Thread nD τ) arg2 fullShare x0 ∗ owns (c : Thread nD τ) arg3 fullShare xi ∗ owns (c : Thread nD τ) arg4 fullShare xs
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨?_, fun xi E K => ?run⟩
  case run =>
    simp only [cc0__reduce_kernel_eq_skeleton]; unfold cc0__reduce_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg4.eq_unread hfs
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- LAST TILE. The column gets the block's sums added and is then written, scaled, into the output buffer, which is
    found at anything: the pieces left in the output buffer and in the column. -/
noncomputable def runLast (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : ¬atFirst i) (h1 : atLast i) (x0 : Vec F S1x8x32x128x128 .f32) (xs : Vec F S32x1x1 .f32) :
    Σ' (LO : List (View.Piece (Elt F) S1x32x1x1 .f32)), { LS : List (View.Piece (Elt F) S32x1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc0__reduce_kernel i arg2 harg2 arg3 harg3 arg4 harg4) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact h0 | exact h1)
    sl_step
    iapply Hk
    isplitl [H0]
    · iexists _; isplitr; · ipureintro; exact harg2.read_unread _
      iexact H0
    isplitl [H1]; · iexists _; iexact H1
    iexists _; iexact HS

end Cert.KernelIdeal.Hand

end
-- ==== Proof.SumRegion.lean ====
/-
  The reduction region's proof data: what the scratch column and the output buffer hold after every grid point.

  The region is entered with its arrays at contents `V`. Point t = 4·b + ct is handed block t of the input,
  x[b, 8·ct … 8·ct+7, ·, ·, ·]. The scratch column after point t is a function of that block and of the column
  before the point (`colStep`): at a first tile the column before is not read; at a middle or last tile it is what
  the point before left. So the column after each point is defined by recursion along the grid (`colAt`), and the
  region's invariant before a point that is not the very first says that the column holds exactly that. The output
  buffer is stored at last tiles only (`outStep`), from the column the point found.
-/
import proofs.«145354_j15135464751187_2_alg».proof.Proof.Gen.KernelIdeal.Launch
import proofs.«145354_j15135464751187_2_alg».proof.Proof.Gen.KernelIdeal.Skeleton
import proofs.«145354_j15135464751187_2_alg».proof.Proof.Gen.KernelIdeal.Points
import proofs.«145354_j15135464751187_2_alg».proof.Proof.SumBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def sumBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block at every point: a block that was not fetched anew is the
    block of the point before, which the body left in place. For any proof data over `V` whose body does so. -/
theorem in_before_of {c : Dev nD} (dat : Dat τ (Elt F) Unit ℕ (UR sig nD τ) ℕ cfg0 c) (hA : dat.A 0 = V c (Pipeline.arrRef spec0 0))
    (hafter : ∀ t, dat.after 0 t = sumBlk V c 0 t) (t : Fin cfg0.N) (d) : dat.before 0 t d = sumBlk V c 0 t := by
  have hblk : ∀ t, dat.blockOf 0 t = sumBlk V c 0 t := fun t => by unfold Dat.blockOf sumBlk; rw [hA]
  refine (dat.before_in_eq_fetched 0 rfl (fun _ => rfl) (fun _ _ _ => rfl) (fun t => ?_) t d).trans ?_
  · rw [hafter, hblk]
  · unfold Dat.fetched; rw [hblk]; rfl

/-! ## The pieces each case writes cover the buffer they are written into -/

theorem first_cover (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : atFirst i) (h1 : ¬atLast i) (x0 : Vec F S1x8x32x128x128 .f32) (y : S32x1x1.Idx) :
    ∃ pc ∈ (runFirst c i arg2 harg2 arg3 harg3 arg4 harg4 h0 h1 x0).1, y ∈ pc.1.set :=
  View.cover_of_tiledL (runFirst c i arg2 harg2 arg3 harg3 arg4 harg4 h0 h1 x0).1 S32x1x1.size (by sl_kernel_rfl) y

theorem mid_cover (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : ¬atFirst i) (h1 : ¬atLast i) (x0 : Vec F S1x8x32x128x128 .f32) (xs : Vec F S32x1x1 .f32) (y : S32x1x1.Idx) :
    ∃ pc ∈ (runMid c i arg2 harg2 arg3 harg3 arg4 harg4 h0 h1 x0 xs).1, y ∈ pc.1.set :=
  View.cover_of_tiledL (runMid c i arg2 harg2 arg3 harg3 arg4 harg4 h0 h1 x0 xs).1 S32x1x1.size (by sl_kernel_rfl) y

theorem last_cover_col (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : ¬atFirst i) (h1 : atLast i) (x0 : Vec F S1x8x32x128x128 .f32) (xs : Vec F S32x1x1 .f32) (y : S32x1x1.Idx) :
    ∃ pc ∈ (runLast c i arg2 harg2 arg3 harg3 arg4 harg4 h0 h1 x0 xs).2.1, y ∈ pc.1.set :=
  View.cover_of_tiledL (runLast c i arg2 harg2 arg3 harg3 arg4 harg4 h0 h1 x0 xs).2.1 S32x1x1.size (by sl_kernel_rfl) y

theorem last_cover_out (c : Dev nD) (i : grid0.Coords) (arg2 : Memref sig .tc .vmem S1x8x32x128x128 .f32) (harg2 : arg2.IsWhole) (arg3 : Memref sig .tc .vmem S1x32x1x1 .f32) (harg3 : arg3.IsWhole) (arg4 : Memref sig .tc .vmem S32x1x1 .f32) (harg4 : arg4.IsWhole)
    (h0 : ¬atFirst i) (h1 : atLast i) (x0 : Vec F S1x8x32x128x128 .f32) (xs : Vec F S32x1x1 .f32) (y : S1x32x1x1.Idx) :
    ∃ pc ∈ (runLast c i arg2 harg2 arg3 harg3 arg4 harg4 h0 h1 x0 xs).1, y ∈ pc.1.set :=
  View.cover_of_tiledL (runLast c i arg2 harg2 arg3 harg3 arg4 harg4 h0 h1 x0 xs).1 S1x32x1x1.size (by sl_kernel_rfl) y

/-! ## One point -/

/-- The scratch column after the body at point `t`, from the column `prev` the point finds: the case's pieces read back.
    (A point is never both a first and a last tile; that arm is never reached.) -/
def colStep (c : Dev nD) (t : Fin cfg0.N) (prev : Vec F S32x1x1 .f32) : Vec F S32x1x1 .f32 :=
  if h0 : atFirst (grid0.coords t) then
    if h1 : atLast (grid0.coords t) then prev
    else colV.read (Elt F) (colV.writes (Elt F) colV.junk
      (runFirst c (grid0.coords t) (inM t) (inM_whole t) (outM t) (outM_whole t) colM (Memref.isWhole_whole _) h0 h1 (sumBlk V c 0 t)).1)
  else
    if h1 : atLast (grid0.coords t) then colV.read (Elt F) (colV.writes (Elt F) colV.junk
      (runLast c (grid0.coords t) (inM t) (inM_whole t) (outM t) (outM_whole t) colM (Memref.isWhole_whole _) h0 h1 (sumBlk V c 0 t) prev).2.1)
    else colV.read (Elt F) (colV.writes (Elt F) colV.junk
      (runMid c (grid0.coords t) (inM t) (inM_whole t) (outM t) (outM_whole t) colM (Memref.isWhole_whole _) h0 h1 (sumBlk V c 0 t) prev).1)

/-- The output buffer after the body at point `t`: stored at a last tile only (elsewhere a placeholder nothing reads:
    the window is idle there and not written back). -/
def outStep (c : Dev nD) (t : Fin cfg0.N) (prev : Vec F S32x1x1 .f32) : Vec F S1x32x1x1 .f32 :=
  if h0 : atFirst (grid0.coords t) then outV.read (Elt F) outV.junk
  else
    if h1 : atLast (grid0.coords t) then outV.read (Elt F) (outV.writes (Elt F) outV.junk
      (runLast c (grid0.coords t) (inM t) (inM_whole t) (outM t) (outM_whole t) colM (Memref.isWhole_whole _) h0 h1 (sumBlk V c 0 t) prev).1)
    else outV.read (Elt F) outV.junk

/-! ## Along the grid -/

/-- The column after the body at position `n`. -/
def colAt (c : Dev nD) : (n : ℕ) → n < cfg0.N → Vec F S32x1x1 .f32
  | 0, hn => colStep V c ⟨0, hn⟩ (colV.read (Elt F) colV.junk)
  | n + 1, hn => colStep V c ⟨n + 1, hn⟩ (colAt c n (Nat.lt_of_succ_lt hn))

/-- The column a point finds: what the point before left (before the very first point, anything). -/
def colBefore (c : Dev nD) : (n : ℕ) → n ≤ cfg0.N → Vec F S32x1x1 .f32
  | 0, _ => colV.read (Elt F) colV.junk
  | n + 1, hn => colAt V c n hn

theorem colAt_eq (c : Dev nD) (t : Fin cfg0.N) :
    colAt V c t.val t.isLt = colStep V c t (colBefore V c t.val (Nat.le_of_lt t.isLt)) := by
  obtain ⟨n, hn⟩ := t
  cases n <;> rfl

/-! ## The invariant -/

/-- The scoped buffers of the core other than this region's staging buffers and its column: the second region's
    staging buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem classInv_split (c : Dev nD) :
    (Pipeline.ΦA spec0 c : sProp 𝕄) = iprop(iprop((∃ d, owns (c : Thread nD τ) colM fullShare d) ∗ others c) ∗ (∃ r, prngReg c r)) := by
  unfold others; exact classInv_eq c

/-- Before position `n`: at the region's entry the class invariant (the column at anything); afterwards the column at
    what the point before left, the other scoped buffers at anything, the generator register at some state. -/
def inv (c : Dev nD) : (n : ℕ) → n ≤ cfg0.N → sProp 𝕄
  | 0, _ => Pipeline.ΦA spec0 c
  | n + 1, hn => iprop(iprop(owns (c : Thread nD τ) colM fullShare (colAt V c n hn) ∗ others c) ∗ (∃ r, prngReg c r))

theorem inv_pos (c : Dev nD) (n : ℕ) (h : n ≤ cfg0.N) (hz : n ≠ 0) :
    inv V c n h = iprop(iprop(owns (c : Thread nD τ) colM fullShare (colBefore V c n h) ∗ others c) ∗ (∃ r, prngReg c r)) := by
  cases n with
  | zero => exact absurd rfl hz
  | succ n => rfl

/-- Whatever the position, the invariant holds the column at SOME contents: enough for a first tile, and for leaving
    the region. -/
theorem inv_any (c : Dev nD) (n : ℕ) (h : n ≤ cfg0.N) :
    inv V c n h ⊢ (iprop(iprop((∃ d, owns (c : Thread nD τ) colM fullShare d) ∗ others c) ∗ (∃ r, prngReg c r)) : sProp 𝕄) := by
  cases n with
  | zero => rw [show inv V c 0 h = Pipeline.ΦA spec0 c from rfl, classInv_split]
  | succ n =>
    rw [show inv V c (n + 1) h = iprop(iprop(owns (c : Thread nD τ) colM fullShare (colAt V c n h) ∗ others c) ∗ (∃ r, prngReg c r)) from rfl]
    iintro ⟨⟨HS, Ho⟩, Hg⟩
    isplitl [HS Ho]
    · isplitl [HS]
      · iexists _; iexact HS
      iexact Ho
    iexact Hg

/-! ## The proof data -/

/-- The region's proof data on core `c`: the arrays as the region finds them; after the body at point `t` the input's
    buffer at its block and the output's at `outStep` of the column the point found; the invariant `inv`; nothing
    owed; full shares. -/
def sumDat (c : Dev nD) : Dat τ (Elt F) Unit ℕ (UR sig nD τ) ℕ cfg0 c where
  A w := V c (Pipeline.arrRef spec0 w)
  after w t := match w with
    | ⟨0, _⟩ => sumBlk V c 0 t
    | ⟨1, _⟩ => outStep V c t (colBefore V c t.val (Nat.le_of_lt t.isLt))
  Φ t := inv V c t.val (Nat.le_of_lt_succ t.isLt)
  q _ := fullShare
  owed _ := 0

theorem sumDat_A (c : Dev nD) (w : Fin cfg0.W) : (sumDat V c).A w = V c (Pipeline.arrRef spec0 w) := by
  dsimp only [sumDat]
theorem sumDat_after_in (c : Dev nD) (t : Fin cfg0.N) : (sumDat V c).after 0 t = sumBlk V c 0 t := by dsimp only [sumDat]
theorem sumDat_after_out (c : Dev nD) (t : Fin cfg0.N) :
    (sumDat V c).after 1 t = outStep V c t (colBefore V c t.val (Nat.le_of_lt t.isLt)) := by dsimp only [sumDat]
theorem sumDat_before_in (c : Dev nD) (t : Fin cfg0.N) (d) : (sumDat V c).before 0 t d = sumBlk V c 0 t :=
  in_before_of V (sumDat V c) (sumDat_A V c 0) (sumDat_after_in V c) t d
theorem sumDat_inv_start (c : Dev nD) (t : Fin cfg0.N) :
    (sumDat V c).Φ t.castSucc = inv V c t.val (Nat.le_of_lt t.isLt) := by
  dsimp only [sumDat]; simp only [Fin.coe_castSucc]

/-! ## The body obligation -/

set_option maxHeartbeats 4000000 in
/-- The body at any point. The input's buffer holds the point's block; the invariant hands the body the column — at
    what the point before left, which a middle or last tile reads, or at anything, which is enough for a first tile —
    and takes it back at this point's contents, the case's pieces covering it; an idle output buffer passes through
    untouched, a stored one comes back covered by its piece. Nothing is owed throughout. -/
theorem sum_body (c : Dev nD) (t : Fin cfg0.N) :
    iprop((sumDat V c).Φ t.castSucc ∗ (sumDat V c).owesAt () t.castSucc
      ∗ (∃ d, owns (c : Thread nD τ) (st0_0 t) fullShare ((sumDat V c).before 0 t d))
      ∗ (∃ d, owns (c : Thread nD τ) (st0_1 t) fullShare ((sumDat V c).before 1 t d)))
    ⊢ wp frame (wpE (defs₀ (F := F)) Variants.none c none) Set.univ (bodyAt0 t) (fun _ =>
      iprop((sumDat V c).Φ t.succ ∗ (sumDat V c).owesAt () t.succ
        ∗ (sumDat V c).leavesExact 0 t ∗ (sumDat V c).leavesExact 1 t)) := by
  unfold bodyAt0
  simp only [sumDat_before_in]
  rw [show (sumDat V c).owesAt () t.succ = (sumDat V c).owesAt () t.castSucc from rfl]
  rw [show (sumDat V c).Φ t.succ = iprop(iprop(owns (c : Thread nD τ) colM fullShare (colAt V c t.val t.isLt) ∗ others c) ∗ (∃ r, prngReg c r)) from rfl]
  rw [colAt_eq V c t, sumDat_inv_start V c t]
  rw [show (sumDat V c).leavesExact 0 t = owns (c : Thread nD τ) (st0_0 t) fullShare ((sumDat V c).after 0 t) from by
    unfold Dat.leavesExact; rw [in_live t], sumDat_after_in]
  have hN : t.val < 32 := lt_of_lt_of_eq t.isLt (show cfg0.N = 32 from N_0)
  by_cases h0 : atFirst (grid0.coords t)
  · have h1 : ¬atLast (grid0.coords t) := fun h => by
      have a := (atFirst_iff t).mp h0; have b := (atLast_iff t).mp h; omega
    rw [Dat.leavesExact_idle (sumDat V c) 1 t (out_idle t h1) (out_noFlush t h1)]
    unfold colStep; rw [dif_pos h0, dif_neg h1]
    iintro ⟨HΦ, Ho, ⟨%d0, H0⟩, ⟨%d1, H1⟩⟩
    ihave HΦ' := (inv_any V c _ _) $$ HΦ
    icases HΦ' with ⟨⟨HS, Hoth⟩, Hg⟩
    iapply ((runFirst c (grid0.coords t) _ _ _ _ _ _ h0 h1 (sumBlk V c 0 t)).2 _ Set.univ _)
    isplitl [H0]; · iexact H0
    isplitl [H1]; · iexact H1
    isplitl [HS]; · iexact HS
    iintro ⟨H0, H1, ⟨%es, HS⟩⟩
    isplitl [HS Hoth Hg]
    · isplitl [HS Hoth]
      · isplitl [HS]
        · unfold owns; iexists _; isplitr
          swap; · iexact HS
          ipureintro; exact View.read_writes_of_cover _ _ _ _ _ (first_cover c _ _ _ _ _ _ _ _ _ _)
        iexact Hoth
      iexact Hg
    isplitl [Ho]; · iexact Ho
    isplitl [H0]; · iexact H0
    iexists _; iexact H1
  · have hz : t.val ≠ 0 := fun e => h0 ((atFirst_iff t).mpr (by rw [e]))
    rw [inv_pos V c _ _ hz]
    by_cases h1 : atLast (grid0.coords t)
    · rw [show (sumDat V c).leavesExact 1 t = owns (c : Thread nD τ) (st0_1 t) fullShare ((sumDat V c).after 1 t) from by
        unfold Dat.leavesExact; rw [out_live t h1], sumDat_after_out]
      unfold colStep outStep; rw [dif_neg h0, dif_pos h1, dif_neg h0, dif_pos h1]
      iintro ⟨⟨⟨HS, Hoth⟩, Hg⟩, Ho, ⟨%d0, H0⟩, ⟨%d1, H1⟩⟩
      iapply ((runLast c (grid0.coords t) _ _ _ _ _ _ h0 h1 (sumBlk V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hoth Hg]
      · isplitl [HS Hoth]
        · isplitl [HS]
          · unfold owns; iexists _; isplitr
            swap; · iexact HS
            ipureintro; exact View.read_writes_of_cover _ _ _ _ _ (last_cover_col c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (last_cover_out c _ _ _ _ _ _ _ _ _ _ _)
    · rw [Dat.leavesExact_idle (sumDat V c) 1 t (out_idle t h1) (out_noFlush t h1)]
      unfold colStep; rw [dif_neg h0, dif_neg h1]
      iintro ⟨⟨⟨HS, Hoth⟩, Hg⟩, Ho, ⟨%d0, H0⟩, ⟨%d1, H1⟩⟩
      iapply ((runMid c (grid0.coords t) _ _ _ _ _ _ h0 h1 (sumBlk V c 0 t) _).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (mid_cover c _ _ _ _ _ _ _ _ _ _ _)
          iexact Hoth
        iexact Hg
      isplitl [Ho]; · iexact Ho
      isplitl [H0]; · iexact H0
      iexists _; iexact H1

/-- The library's body obligation, at every point. -/
theorem sum_obligation (c : Dev nD) : BodyObligation (sumDat (F := F) V c) (defs₀ (F := F)) Variants.none () Set.univ := fun t => by
  rw [bigSep_W0, bigSep_W0]
  exact sum_body V c t

/-! ## Entering and leaving the region -/

/-- What the launch hands the region is the invariant before the first point. -/
theorem sum_enter (c : Dev nD) : Pipeline.ΦA spec0 c ⊢ (sumDat V c).Φ 0 := by
  rw [show (sumDat V c).Φ 0 = Pipeline.ΦA spec0 c from rfl]

/-- After the last point the invariant gives the class invariant back: the column's contents are forgotten. -/
theorem sum_leave (c : Dev nD) : (sumDat V c).Φ (Fin.last cfg0.N) ⊢ Pipeline.ΦA spec0 c := by
  rw [show (sumDat V c).Φ (Fin.last cfg0.N) = inv V c (Fin.last cfg0.N).val (Nat.le_of_lt_succ (Fin.last cfg0.N).isLt) from rfl, classInv_split]
  exact inv_any V c _ _

end Cert.KernelIdeal.Hand

end
-- ==== Proof.MulRegion.lean ====
/-
  The multiplying call of the program, one grid point at a time.

  The call walks an 8 × 8 grid. At point (i, j) it is handed three staging buffers: one holding block (i, j) —
  extents [1,4,32,128,128] — of the first operand, one holding the [1,32,1,1] column of per-channel factors of
  row i, and one that receives block (i, j) of the result. Its body reads the column and the operand's block
  whole, multiplies every element of the block by the factor of its channel, and overwrites the result's
  buffer whole with the products.

  Everything below is stated at arbitrary contents `V` of the core's arrays at the moment the call begins, and at
  an arbitrary float model `F`:
  * `mulBlk`: the block a window selects from its array at a grid point;
  * `mulOut`: what the body leaves in the result's buffer, as a function of the two blocks it read;
  * `mul_triple`: run on any three whole buffers, the body hands back the two it read unchanged and the third
    holding `mulOut` of them;
  * `mulDat`: what each staging buffer holds after the body at each point; a buffer the body only reads holds its
    window's block at EVERY point, also where no block was brought in because the window had not moved
    (the column's window moves only when i does: at one point in eight);
  * `mul_obligation`: at every grid point the body does what the pipelined loop around it asks of it.
-/
import proofs.«145354_j15135464751187_2_alg».proof.Proof.Gen.KernelIdeal.Launch
import proofs.«145354_j15135464751187_2_alg».proof.Proof.Gen.KernelIdeal.Skeleton
import proofs.«145354_j15135464751187_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what each of the core's arrays holds when the multiplying call begins
variable (V : (c : Dev nD) → (b : Ref sig .tc) → Buf (Elt F) ((c : Thread nD τ).loc b))

/-! ## Blocks -/

/-- The slice of window `w`'s array that grid point `t` selects, the array holding what it held when the
    multiplying call began. -/
def mulBlk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The rectangles the body reads and writes: each is a whole buffer -/

/-- All of a [1,4,32,128,128] buffer: unit strides from the origin, the buffer's own extents. -/
abbrev rBlock : Rect S1x4x32x128x128 :=
  Rect.unit (s := S1x4x32x128x128) ![0, 0, 0, 0, 0] S1x4x32x128x128.size inb_S1x4x32x128x128_S1x4x32x128x128_0_0_0_0_0

/-- All of a [1,32,1,1] buffer. -/
abbrev rCol : Rect S1x32x1x1 :=
  Rect.unit (s := S1x32x1x1) ![0, 0, 0, 0] S1x32x1x1.size inb_S1x32x1x1_S1x32x1x1_0_0_0_0

/-- A unit-stride rectangle that starts at the origin and has the shape's own extents holds every index of the
    shape: on each axis, coordinate `y a` is the `y a`-th of the rectangle's. -/
theorem mem_origin_rect {s : Shape} (off : Fin s.rank → ℕ) (h0 : ∀ a, off a = 0)
    (inb : ∀ a, off a + s.size a ≤ s.size a) (y : s.Idx) : y ∈ (Rect.unit off s.size inb).set :=
  (LoadRect.mem_set _).mpr fun a => ⟨(y a).val, (y a).isLt, by
    show ((y a : ℕ)) = off a + 1 * (y a).val
    rw [h0 a, Nat.zero_add, Nat.one_mul]⟩

/-! ## What the body leaves in the result's buffer -/

/-- The result's staging buffer after the body, from the operand's block `x0` and the factors' column `x1`: the
    products, written over the whole buffer in one piece. -/
def mulOut (x0 : Vec F S1x4x32x128x128 .f32) (x1 : Vec F S1x32x1x1 .f32) : Vec F S1x4x32x128x128 .f32 :=
  View.canon [⟨rBlock, k1_pay1 (View.ld x1 rCol) (View.ld x0 rBlock)⟩]

/-- That one piece covers the buffer, whatever it carries: its rectangle is the whole shape. -/
theorem mulOut_cover (p : Vec F S1x4x32x128x128 .f32) (y : S1x4x32x128x128.Idx) :
    ∃ pc ∈ ([⟨rBlock, p⟩] : List (View.Piece (Elt F) S1x4x32x128x128 .f32)), y ∈ pc.1.set :=
  ⟨⟨rBlock, p⟩, List.mem_singleton.mpr rfl,
    mem_origin_rect _ (fun a => by fin_cases a <;> rfl) inb_S1x4x32x128x128_S1x4x32x128x128_0_0_0_0_0 y⟩

/-! ## The body on three whole buffers -/

/-- The body of the multiplying call, on whole buffers `arg2` reading `x0`, `arg3` reading `x1` and `arg4` holding
    anything, at any grid coordinates: it reaches its continuation with `arg2` and `arg3` reading what they read and
    `arg4` reading `mulOut x0 x1`. The two loads read `x1` and `x0` through the whole-buffer rectangles; the load of
    `arg4` is unused; the single store writes the products over all of `arg4`, so what was there before does not
    show (`mulOut_cover`). -/
theorem mul_triple (c : Dev nD) (E : Set ℕ) (i : grid1.Coords)
    (arg2 : Memref sig .tc .vmem S1x4x32x128x128 .f32) (harg2 : arg2.IsWhole)
    (arg3 : Memref sig .tc .vmem S1x32x1x1 .f32) (harg3 : arg3.IsWhole)
    (arg4 : Memref sig .tc .vmem S1x4x32x128x128 .f32) (harg4 : arg4.IsWhole)
    (x0 : Vec F S1x4x32x128x128 .f32) (x1 : Vec F S1x32x1x1 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (mulOut x0 x1)) -∗ K ⟨⟩))
      ⊢ wp frame (wpE (defs₀ (F := F)) Variants.none c none) E
          (cc1__mul_kernel i arg2 harg2 arg3 harg3 arg4 harg4) K := by
  rw [cc1__mul_kernel_eq_skeleton]
  unfold cc1__mul_kernel_skel owns
  iintro ⟨⟨%f0, %e0, H0⟩, ⟨%f1, %e1, H1⟩, ⟨%d, %f2, -, H2⟩, Hk⟩
  subst e0 e1
  sl_exec
  sl_step
  iapply Hk
  isplitl [H0]
  · iexists f0
    isplitr
    · ipureintro; rfl
    · iexact H0
  isplitl [H1]
  · iexists f1
    isplitr
    · ipureintro; rfl
    · iexact H1
  iexists arg4.view.writes (Elt F) f2
    [⟨rBlock, k1_pay1 (View.ld (arg3.view.read (Elt F) f1) rCol) (View.ld (arg2.view.read (Elt F) f0) rBlock)⟩]
  isplitr
  · ipureintro
    exact View.read_writes_eq_canon _ _ _ (mulOut_cover _)
  · iexact H2

/-! ## The staging buffers, point by point -/

/-- The proof data of the multiplying call on core `c`: the arrays at `V`; after the body at point `t` the two buffers
    it only reads hold their windows' blocks still, and the result's holds `mulOut` of those two blocks; the body
    keeps nothing else from point to point, owes nothing and holds its arrays outright. -/
def mulDat (c : Dev nD) : Dat τ (Elt F) Unit ℕ (UR sig nD τ) ℕ cfg1 c where
  A w := V c (Pipeline.arrRef spec1 w)
  after w t := match w with
    | ⟨0, _⟩ => mulBlk V c 0 t
    | ⟨1, _⟩ => mulBlk V c 1 t
    | ⟨2, _⟩ => mulOut (mulBlk V c 0 t) (mulBlk V c 1 t)
  Φ _ := Pipeline.ΦA spec1 c
  q _ := fullShare
  owed _ := 0

/-- Its arrays are the entry contents. -/
theorem mulDat_A (c : Dev nD) (w : Fin cfg1.W) : (mulDat V c).A w = V c (Pipeline.arrRef spec1 w) := by
  dsimp only [mulDat]

/-- What the body leaves, window by window. -/
theorem mulDat_after0 (c : Dev nD) (t : Fin cfg1.N) : (mulDat V c).after 0 t = mulBlk V c 0 t := by
  dsimp only [mulDat]
theorem mulDat_after1 (c : Dev nD) (t : Fin cfg1.N) : (mulDat V c).after 1 t = mulBlk V c 1 t := by
  dsimp only [mulDat]
theorem mulDat_after2 (c : Dev nD) (t : Fin cfg1.N) :
    (mulDat V c).after 2 t = mulOut (mulBlk V c 0 t) (mulBlk V c 1 t) := by
  dsimp only [mulDat]

/-- The operand's staging buffer holds the operand's block at every point. The body leaves that block where it
    found it, so the buffer holds a block of the window's at every point; and it is THIS point's block, for where
    the loop brings no new block in the window selects the block it selected at the point before. -/
theorem mulDat_before0 (c : Dev nD) (t : Fin cfg1.N) (d) : (mulDat V c).before 0 t d = mulBlk V c 0 t := by
  have hkeep : ∀ t', (cfg1.win 0).cut (cfg1.grid.coords t') ((mulDat V c).after 0 t') = (mulDat V c).blockOf 0 t' := by
    intro t'
    rw [mulDat_after0]
    unfold Dat.blockOf mulBlk
    rw [mulDat_A]
  rw [(mulDat V c).before_in_eq_fetched 0 rfl (fun _ => rfl) (fun _ _ _ => rfl) hkeep t d]
  unfold Dat.fetched Dat.blockOf mulBlk
  rw [mulDat_A]
  rfl

/-- The same of the factors' staging buffer, which is filled only at the first point of each grid row (j = 0): the
    seven points that follow find in it the column the first one found, and theirs is that column, the window's
    block depending on i alone. -/
theorem mulDat_before1 (c : Dev nD) (t : Fin cfg1.N) (d) : (mulDat V c).before 1 t d = mulBlk V c 1 t := by
  have hkeep : ∀ t', (cfg1.win 1).cut (cfg1.grid.coords t') ((mulDat V c).after 1 t') = (mulDat V c).blockOf 1 t' := by
    intro t'
    rw [mulDat_after1]
    unfold Dat.blockOf mulBlk
    rw [mulDat_A]
  rw [(mulDat V c).before_in_eq_fetched 1 rfl (fun _ => rfl) (fun _ _ _ => rfl) hkeep t d]
  unfold Dat.fetched Dat.blockOf mulBlk
  rw [mulDat_A]
  rfl

/-! ## The body at a grid point -/

/-- The body as the loop calls it at point `t`, on the three buffers current there. It is handed the loop's
    invariant, what the core owes, and each buffer at what it then holds: the two it reads at their windows' blocks
    (`mulDat_before0`, `mulDat_before1`), the result's at anything. `mul_triple` at those blocks returns the three
    buffers at what `mulDat` says the body leaves; the invariant and the debt, which do not depend on the point and
    which the body does not touch, pass through. -/
theorem mul_point (c : Dev nD) (t : Fin cfg1.N) :
    iprop((mulDat V c).Φ t.castSucc ∗ (mulDat V c).owesAt () t.castSucc
        ∗ (∃ d, owns (c : Thread nD τ) (st1_0 t) fullShare ((mulDat V c).before 0 t d))
        ∗ (∃ d, owns (c : Thread nD τ) (st1_1 t) fullShare ((mulDat V c).before 1 t d))
        ∗ (∃ d, owns (c : Thread nD τ) (st1_2 t) fullShare ((mulDat V c).before 2 t d)))
      ⊢ wp frame (wpE (defs₀ (F := F)) Variants.none c none) Set.univ (bodyAt1 t) fun _ =>
          iprop((mulDat V c).Φ t.succ ∗ (mulDat V c).owesAt () t.succ
            ∗ owns (c : Thread nD τ) (st1_0 t) fullShare ((mulDat V c).after 0 t)
            ∗ owns (c : Thread nD τ) (st1_1 t) fullShare ((mulDat V c).after 1 t)
            ∗ owns (c : Thread nD τ) (st1_2 t) fullShare ((mulDat V c).after 2 t)) := by
  have hΦ : (mulDat V c).Φ t.succ = (mulDat V c).Φ t.castSucc := rfl
  have hO : (mulDat V c).owesAt () t.succ = (mulDat V c).owesAt () t.castSucc := rfl
  rw [hΦ, hO, mulDat_after0, mulDat_after1, mulDat_after2]
  simp only [mulDat_before0, mulDat_before1]
  iintro ⟨HΦ, HO, ⟨%d0, Hx⟩, ⟨%d1, Hs⟩, Hy⟩
  iapply (mul_triple c Set.univ (grid1.coords t) _ _ _ _ _ _ (mulBlk V c 0 t) (mulBlk V c 1 t) _)
  isplitl [Hx]
  · iexact Hx
  isplitl [Hs]
  · iexact Hs
  isplitl [Hy]
  · icases Hy with ⟨%d2, Hy⟩
    iexists _
    iexact Hy
  iintro ⟨Hx, Hs, Hy⟩
  isplitl [HΦ]
  · iexact HΦ
  isplitl [HO]
  · iexact HO
  isplitl [Hx]
  · iexact Hx
  isplitl [Hs]
  · iexact Hs
  iexact Hy

/-- So the body meets the loop's obligation at every point: the obligation's conjunction over the three windows,
    written out, is `mul_point`. -/
theorem mul_obligation (c : Dev nD) :
    BodyObligation (mulDat (F := F) V c) (defs₀ (F := F)) Variants.none () Set.univ := by
  intro t
  rw [bigSep_W1, bigSep_W1]
  exact mul_point V c t

end Cert.KernelIdeal.Hand

end
-- ==== Proof.MainRun.lean ====
/-
  The whole program's run: the two pallas_calls one after the other.

  @main is the reduction region followed by the multiplication region, with no host operation between or around
  them. The buffers' contents are followed through the two regions: at launch (`W0`); after the reduction, its
  output array main_v0 at what its write-backs leave and everything else as launched (`W1`); after the
  multiplication, its output array main_v1 at what its write-backs leave and everything else as it was (`W2`).
  Each region is entered holding every unscoped buffer at the contents of the boundary before it, the generator
  register at some state and nothing owed, and is left holding the same at the boundary after it. Every weakly fair
  execution therefore terminates with every unscoped buffer at `W2`: the argument as launched, the result at the
  multiplication region's final array.
-/
import proofs.«145354_j15135464751187_2_alg».proof.Proof.Gen.KernelIdeal.Launch
import proofs.«145354_j15135464751187_2_alg».proof.Proof.Gen.KernelIdeal.Skeleton
import proofs.«145354_j15135464751187_2_alg».proof.Proof.Gen.KernelIdeal.Points
import proofs.«145354_j15135464751187_2_alg».proof.Proof.SumRegion
import proofs.«145354_j15135464751187_2_alg».proof.Proof.MulRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the three boundaries -/

/-- Core `c`'s buffers at launch, -/
abbrev W0 : Dev nD → Valuation τ sig (Elt F) := fun c b => m (c, b)
/-- read at the TensorCore's references: what the reduction region's proof data take. -/
abbrev E0 : (c : Dev nD) → (b : Ref sig .tc) → Buf (Elt F) ((c : Thread nD τ).loc b) := fun c b => W0 m c b

/-- After the reduction region: its arrays at what the pipeline leaves, every other buffer as entered. -/
def W1 (c : Dev nD) : Valuation τ sig (Elt F) :=
  Pipeline.withArrays spec0 c (W0 m c) fun w => (sumDat (E0 m) c).arrAt w cfg0.N
abbrev E1 : (c : Dev nD) → (b : Ref sig .tc) → Buf (Elt F) ((c : Thread nD τ).loc b) := fun c b => W1 m c b

theorem W1_arr (c : Dev nD) (w : Fin cfg0.W) :
    W1 m c (Proc.devRef .tc (Pipeline.arrRef spec0 w)) = (sumDat (E0 m) c).arrAt w cfg0.N := by
  unfold W1; exact Pipeline.withArrays_arr spec0 launch0.win.arr_inj c _ _ w
theorem W1_other (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

/-- After the multiplication region: its arrays at what the pipeline leaves, every other buffer as entered. -/
def W2 (c : Dev nD) : Valuation τ sig (Elt F) :=
  Pipeline.withArrays spec1 c (W1 m c) fun w => (mulDat (E1 m) c).arrAt w cfg1.N
abbrev E2 : (c : Dev nD) → (b : Ref sig .tc) → Buf (Elt F) ((c : Thread nD τ).loc b) := fun c b => W2 m c b

theorem W2_arr (c : Dev nD) (w : Fin cfg1.W) :
    W2 m c (Proc.devRef .tc (Pipeline.arrRef spec1 w)) = (mulDat (E1 m) c).arrAt w cfg1.N := by
  unfold W2; exact Pipeline.withArrays_arr spec1 launch1.win.arr_inj c _ _ w
theorem W2_other (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

/-! ## What the boundaries hold at the program's three arrays -/

/-- The argument is an input of both regions: neither changes it. -/
theorem E1_arg (c : Dev nD) : E1 m c main_arg0 = m ((c : Thread nD τ).loc main_arg0) :=
  (W1_arr m c 0).trans (((sumDat (E0 m) c).arrAt_in 0 rfl _).trans (sumDat_A (E0 m) c 0))
theorem E2_arg (c : Dev nD) : E2 m c main_arg0 = m ((c : Thread nD τ).loc main_arg0) :=
  (W2_arr m c 0).trans ((((mulDat (E1 m) c).arrAt_in 0 rfl _).trans (mulDat_A (E1 m) c 0)).trans (E1_arg m c))
/-- The column of means is the reduction region's output, -/
theorem E1_col (c : Dev nD) : E1 m c main_v0 = (sumDat (E0 m) c).arrAt 1 cfg0.N := W1_arr m c 1
/-- and the result the multiplication region's. -/
theorem E2_res (c : Dev nD) : E2 m c main_v1 = (mulDat (E1 m) c).arrAt 2 cfg1.N := W2_arr m c 2

/-! ## The proof data family and the thread state -/

/-- No pallas_call has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => sumDat (E0 m) c
  | ⟨1, _⟩ => fun c => mulDat (E1 m) c

/-- No core owes another anything: no level is assigned. -/
abbrev noLevels : GSem nD τ sig → Finset Unit := fun _ => ∅
abbrev levelOf : GSem nD τ sig → Unit → ℕ := fun _ _ => 0

/-- What rides beside the buffers: the generator register at some state and the core owing nothing. -/
abbrev beside (c : Dev nD) : sProp 𝕄 := iprop((∃ r, prngReg c r) ∗ ∃ W, owes (c : Thread nD τ) (0 : CellTallies nD τ sig Unit) W)

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE REDUCTION REGION: entered from every unscoped buffer at `W0`, left at `W1`. Its arrays are split out of the
    unscoped buffers and put back at the exit contents; the generator register goes into the invariant and comes back;
    the invariant starts as the class's and ends by forgetting the column; nothing owed; no semaphore of the kernel's own. -/
def sumSeg : Pipeline.RegionSeg (pcfgs (F := F)) adm (pdats m) () defs₀ Variants.none noLevels levelOf 0 where
  win := launch0.win.to₀
  block_pos := launch0.block_pos
  stage_whole := launch0.stage_whole
  K := PEmpty
  osem k := k.elim
  ho := Pipeline.OwnSemFacts.none _
  hbody c := (sum_obligation (E0 m) c).loose
  hwaits := Pipeline.hwaits_of_owed_zero _ _ _ _ noLevels levelOf 0 fun _ _ => rfl
  pre c := iprop(StableHlo.held (c : Thread nD τ) (Pipeline.ucRefs τ sig) (W0 m c) ∗ beside c)
  post c := iprop(StableHlo.held (c : Thread nD τ) (Pipeline.ucRefs τ sig) (W1 m c) ∗ beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from sum_leave (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (fun w => (W1_arr m c w).symm)
      (fun b hb => W1_other m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE MULTIPLICATION REGION: entered from every unscoped buffer at `W1`, left at `W2`; its invariant is the class's
    throughout. -/
def mulSeg : Pipeline.RegionSeg (pcfgs (F := F)) adm (pdats m) () defs₀ Variants.none noLevels levelOf 1 where
  win := launch1.win.to₀
  block_pos := launch1.block_pos
  stage_whole := launch1.stage_whole
  K := PEmpty
  osem k := k.elim
  ho := Pipeline.OwnSemFacts.none _
  hbody c := (mul_obligation (E1 m) c).loose
  hwaits := Pipeline.hwaits_of_owed_zero _ _ _ _ noLevels levelOf 1 fun _ _ => rfl
  pre c := iprop(StableHlo.held (c : Thread nD τ) (Pipeline.ucRefs τ sig) (W1 m c) ∗ beside c)
  post c := iprop(iprop(StableHlo.held (c : Thread nD τ) (Pipeline.ucRefs τ sig) (W2 m c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (fun w => (W2_arr m c w).symm)
      (fun b hb => W2_other m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

set_option backward.isDefEq.respectTransparency.types false in
/-- At the compiled mesh, from any memory with zero counters, every weakly fair execution of @main terminates, nothing
    faulting, and in every final state the result array holds what the multiplication region's write-backs leave and
    the argument array what it held at launch. -/
theorem run : θ_run defs (onTc (τ := τ) (main (F := F))) ⟨m, fun _ => 0, ρ⟩ (fun r => ∀ c : Dev nD,
      r.2.mem ((c.tc : Thread nD τ).loc main_v1) = (mulDat (E1 m) c).arrAt 2 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ Variants.none noLevels levelOf m ρ main
    [.region (sumSeg m), .region (mulSeg m)]
    (fun c Q => by rw [main_segs adm (pdats m) () Variants.none noLevels levelOf (sumSeg m) (mulSeg m) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c))
    (Tₙ := fun c => iprop(StableHlo.held (c : Thread nD τ) (Pipeline.ucRefs τ sig) (W2 m c) ∗ ∃ r, prngReg c r))
    (hch := ⟨fun _ => .rfl, fun _ => .rfl, fun _ => .rfl⟩)
    (hinit := by
      refine Pipeline.initEach noLevels levelOf fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_unscoped main_v1 (by decide))).trans (E2_res m c),
       (h c _ (mem_unscoped main_arg0 (by decide))).trans (E2_arg m c)⟩)

/-- The frame claim: the program runs and its argument ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.KernelIdeal.Hand

end
-- ==== Proof.Payloads.lean ====
/- The four pure terms the two kernels store, read at one index over the extended reals. The first kernel's column
   starts at 0; each channel tile adds to it the [1, 8, 32, 128, 128] block summed over its eight channels, then over its
   columns, then over its rows; at the last channel tile the column is multiplied by the literal 0x36000000 and
   relabelled [1, 32, 1, 1]. The second kernel multiplies a [1, 4, 32, 128, 128] block by that column broadcast along
   channels, rows and columns. Before them: the shape casts that add or drop a unit axis at the ranks met here, and the
   index a one-axis sum ranges over, written by coordinates. -/
import proofs.«145354_j15135464751187_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.Pay

open Idealize.ShloMosaic Idealize.ShloMosaic.ValueIdx Cert.KernelIdeal Cert.KernelIdeal.Gen

/-! ## Shape casts that add or drop a unit axis -/

section Casts
variable {α : Type}

/-- A [1, m, a, b, c] array cast to [m, a, b, c] reads, at (k, i, j, l), the operand at (0, k, i, j, l). -/
theorem shapeCast_1abcd_abcd_apply {m a b c : ℕ} (x : (⟨5, ![1, m, a, b, c]⟩ : Shape).Idx → α)
    (h : (⟨5, ![1, m, a, b, c]⟩ : Shape).ShapeCasts ⟨4, ![m, a, b, c]⟩) (k : Fin m) (i : Fin a) (j : Fin b) (l : Fin c) :
    shapeCast ⟨4, ![m, a, b, c]⟩ x h (ix4 k i j l) = x (ix5 (0 : Fin 1) k i j l) :=
  shapeCast_apply x h _ _ (by
    rw [Shape.rowMajor_val_five, Shape.rowMajor_val_four]
    show (((0 * m + k.val) * a + i.val) * b + j.val) * c + l.val = ((k.val * a + i.val) * b + j.val) * c + l.val
    rw [Nat.zero_mul, Nat.zero_add])

/-- An [m, a, b, c] array cast to [1, m, a, b, c] reads, at (u, k, i, j, l), the operand at (k, i, j, l). -/
theorem shapeCast_abcd_1abcd_apply {m a b c : ℕ} (x : (⟨4, ![m, a, b, c]⟩ : Shape).Idx → α)
    (h : (⟨4, ![m, a, b, c]⟩ : Shape).ShapeCasts ⟨5, ![1, m, a, b, c]⟩) (u : Fin 1) (k : Fin m) (i : Fin a) (j : Fin b)
    (l : Fin c) : shapeCast ⟨5, ![1, m, a, b, c]⟩ x h (ix5 u k i j l) = x (ix4 k i j l) :=
  shapeCast_apply x h _ _ (by
    have hu : u.val = 0 := by omega
    rw [Shape.rowMajor_val_five, Shape.rowMajor_val_four]
    show ((k.val * a + i.val) * b + j.val) * c + l.val = (((u.val * m + k.val) * a + i.val) * b + j.val) * c + l.val
    rw [hu, Nat.zero_mul, Nat.zero_add])

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

end Casts

/-! ## The index a one-axis reduction sums over, by coordinates -/

section Lifts

/-- Over the leading axis of a rank-4 array: the reduced index (d, h, w) with k put back is (k, d, h, w). -/
theorem lift4_axis0 {n0 n1 n2 n3 : ℕ}
    (r : (⟨4, ![n0, n1, n2, n3]⟩ : Shape).Reduces [0] (⟨3, ![n1, n2, n3]⟩ : Shape)) (d : Fin n1) (h : Fin n2) (w : Fin n3)
    (k : Fin ((⟨4, ![n0, n1, n2, n3]⟩ : Shape).size 0)) :
    r.lift (ix3 d h w) k = ix4 (⟨k.val, k.isLt⟩ : Fin n0) d h w := by
  funext c; apply Fin.ext
  fin_cases c <;> rfl

/-- Over the last axis of a rank-3 array: the reduced index (d, h) with w put back is (d, h, w). -/
theorem lift3_axis2 {n0 n1 n2 : ℕ}
    (r : (⟨3, ![n0, n1, n2]⟩ : Shape).Reduces [2] (⟨2, ![n0, n1]⟩ : Shape)) (d : Fin n0) (h : Fin n1)
    (w : Fin ((⟨3, ![n0, n1, n2]⟩ : Shape).size 2)) :
    r.lift (ix2 d h) w = ix3 d h (⟨w.val, w.isLt⟩ : Fin n2) := by
  funext c; apply Fin.ext
  fin_cases c <;> rfl

/-- Over the middle axis of a rank-3 array: the reduced index (d, u) with h put back is (d, h, u). -/
theorem lift3_axis1 {n0 n1 n2 : ℕ}
    (r : (⟨3, ![n0, n1, n2]⟩ : Shape).Reduces [1] (⟨2, ![n0, n2]⟩ : Shape)) (d : Fin n0) (u : Fin n2)
    (h : Fin ((⟨3, ![n0, n1, n2]⟩ : Shape).size 1)) :
    r.lift (ix2 d u) h = ix3 d (⟨h.val, h.isLt⟩ : Fin n1) u := by
  funext c; apply Fin.ext
  fin_cases c <;> rfl

end Lifts

/-! ## The four payloads at an index -/

/-- The first point's store: the zero word broadcast, the extended real 0 everywhere. -/
theorem pay1_apply (j : S32x1x1.Idx) : k0_pay1 (F := Ideal) j = 0 := by
  unfold k0_pay1
  simp only [shapeCast_self]
  exact Ideal.ofBits_zero_f32

/-- The block summed over its eight channels, then over its columns, then over its rows, added to the running column. -/
theorem pay2_apply (v3 : Vec Ideal S1x8x32x128x128 .f32) (v10 : Vec Ideal S32x1x1 .f32) (d : Fin 32) :
    k0_pay2 (F := Ideal) v3 v10 (ix3 d 0 0)
      = v10 (ix3 d 0 0) + ∑ h : Fin 128, ∑ w : Fin 128, ∑ k : Fin 8, v3 (ix5 0 k d h w) := by
  unfold k0_pay2
  simp only [shapeCast_self]
  rw [addf_apply]
  congr 1
  refine (shapeCast_ab_ab1_apply _ _ d 0 0).trans ?_
  refine (Ideal.multiReduction_add_single _ _ _ _ _ _).trans ?_
  refine Finset.sum_congr rfl fun h _ => ?_
  rw [lift3_axis1]
  refine (shapeCast_ab_ab1_apply _ _ d _ 0).trans ?_
  refine (Ideal.multiReduction_add_single _ _ _ _ _ _).trans ?_
  refine Finset.sum_congr rfl fun w _ => ?_
  rw [lift3_axis2]
  refine (Ideal.multiReduction_add_single _ _ _ _ _ _).trans ?_
  refine Finset.sum_congr rfl fun k _ => ?_
  rw [lift4_axis0]
  exact shapeCast_1abcd_abcd_apply _ _ _ _ _ _

/-- The last channel tile's store: the column times the literal, relabelled [1, 32, 1, 1]. -/
theorem pay3_apply (v18 : Vec Ideal S32x1x1 .f32) (d : Fin 32) :
    k0_pay3 (F := Ideal) v18 (ix4 0 d 0 0) = v18 (ix3 d 0 0) * Ideal.ofBits .f32 0x36000000#32 := by
  unfold k0_pay3
  refine (shapeCast_abc_1abc_apply _ _ 0 d 0 0).trans ?_
  rfl

/-- The second kernel's store: the block times the column broadcast along channels, rows and columns. -/
theorem mul_apply (v0 : Vec Ideal S1x32x1x1 .f32) (v3 : Vec Ideal S1x4x32x128x128 .f32) (k : Fin 4) (d : Fin 32)
    (h w : Fin 128) :
    k1_pay1 (F := Ideal) v0 v3 (ix5 0 k d h w) = v3 (ix5 0 k d h w) * v0 (ix4 0 d 0 0) := by
  unfold k1_pay1
  simp only [shapeCast_shapeCast]
  refine (shapeCast_abcd_1abcd_apply _ _ 0 k d h w).trans ?_
  rw [mulf_apply]
  congr 1
  · exact shapeCast_1abcd_abcd_apply _ _ k d h w
  · refine broadcastTo_apply _ _ _ _ fun a => ?_
    match a with
    | ⟨0, _⟩ => rfl
    | ⟨1, _⟩ => rfl
    | ⟨2, _⟩ => rfl
    | ⟨3, _⟩ => rfl

end Cert.KernelIdeal.Pay

end
-- ==== Proof.Spec.lean ====
/-
  The function both programs compute, index by index over the extended reals.

  The input is an array x[b, c, d, h, w] of shape [8, 32, 32, 128, 128]. For each batch b and depth d the
  slab x[b, ·, d, ·, ·] has 32 · 128 · 128 = 2¹⁹ entries; its mean is their sum scaled by 2⁻¹⁹, and the result
  multiplies every entry of the slab by that mean:

      G x [b, c, d, h, w] = x[b, c, d, h, w] · ((∑ c' h' w', x[b, c', d, h', w']) · 2⁻¹⁹).

  The scale is kept as the binary word 0x36000000 of the single-precision number 2⁻¹⁹, which is exact.
-/
import Idealize.ShloMosaic.PureOps.Ideal
import Idealize.ShloMosaic.Lib.ValueIdx

noncomputable section

namespace Cert.Spec

open Idealize.ShloMosaic Idealize.ShloMosaic.ValueIdx

/-- The shape of the input and of the result. -/
abbrev SX : Shape := ⟨5, ![8, 32, 32, 128, 128]⟩

/-- The sum of the slab of batch `b` and depth `d` over its channels, rows and columns. -/
def total (x : SX.Idx → EReal) (b : Fin 8) (d : Fin 32) : EReal :=
  ∑ c : Fin 32, ∑ h : Fin 128, ∑ w : Fin 128, x (ix5 b c d h w)

/-- The slab's mean: its total scaled by 2⁻¹⁹ = 1 / (32 · 128 · 128). -/
def mean (x : SX.Idx → EReal) (b : Fin 8) (d : Fin 32) : EReal :=
  total x b d * Ideal.ofBits .f32 0x36000000#32

/-- Every entry times the mean of its slab. -/
def G (x : SX.Idx → EReal) : SX.Idx → EReal :=
  fun i => x i * mean x ⟨(i 0).val, (i 0).isLt⟩ ⟨(i 2).val, (i 2).isLt⟩

theorem G_apply (x : SX.Idx → EReal) (b : Fin 8) (c : Fin 32) (d : Fin 32) (h w : Fin 128) :
    G x (ix5 b c d h w) = x (ix5 b c d h w) * mean x b d := rfl

end Cert.Spec

end
-- ==== Proof.TileTotal.lean ====
/-
  The slab's total, summed the way the reduction walks it.

  A slab x[b, ·, d, ·, ·] has 32 channels of 128 × 128 entries. The reduction takes the channels in four tiles of
  eight consecutive ones; within a tile it adds the eight channels first, then along the columns, then along the
  rows; and it adds the four tile sums, one after the other, onto zero. Addition of extended reals is commutative
  and associative and zero is neutral for it, so the order does not matter: what comes out is the sum over all
  channels, rows and columns. Nothing else is used of the extended reals.
-/
import proofs.«145354_j15135464751187_2_alg».proof.Proof.Spec
import Idealize.ShloMosaic.Lib.ValueIdx
import Mathlib.Algebra.BigOperators.Fin

noncomputable section

namespace Cert.TileTotal

open Idealize.ShloMosaic Idealize.ShloMosaic.ValueIdx

/-- The sum of channel tile `ct` of the slab of batch `b` and depth `d`: rows outermost, then columns, the tile's 8 channels innermost. -/
def tile (x : Cert.Spec.SX.Idx → EReal) (b : Fin 8) (d : Fin 32) (ct : Fin 4) : EReal :=
  ∑ h : Fin 128, ∑ w : Fin 128, ∑ k : Fin 8, x (ix5 b ⟨8 * ct.val + k.val, by omega⟩ d h w)

/-- A channel is a tile and a place in the tile: channel `c` is the `c % 8`-th of tile `c / 8`, and the `k`-th channel
    of tile `ct` is channel `8 · ct + k`. -/
def chanOfTile : Fin 4 × Fin 8 ≃ Fin 32 where
  toFun p := ⟨8 * p.1.val + p.2.val, by omega⟩
  invFun c := (⟨c.val / 8, by omega⟩, ⟨c.val % 8, by omega⟩)
  left_inv p := by
    refine Prod.ext (Fin.ext ?_) (Fin.ext ?_)
    · show (8 * p.1.val + p.2.val) / 8 = p.1.val
      omega
    · show (8 * p.1.val + p.2.val) % 8 = p.2.val
      omega
  right_inv c := by
    refine Fin.ext ?_
    show 8 * (c.val / 8) + c.val % 8 = c.val
    omega

/-- In a commutative monoid a sum over the 32 channels is the sum, tile by tile, of the sums over each tile's eight. -/
theorem sum_by_tiles {M : Type*} [AddCommMonoid M] (f : Fin 32 → M) :
    ∑ ct : Fin 4, ∑ k : Fin 8, f ⟨8 * ct.val + k.val, by omega⟩ = ∑ c : Fin 32, f c :=
  calc ∑ ct : Fin 4, ∑ k : Fin 8, f ⟨8 * ct.val + k.val, by omega⟩
      = ∑ p : Fin 4 × Fin 8, f (chanOfTile p) :=
        (Fintype.sum_prod_type' fun ct k => f (chanOfTile (ct, k))).symm
    _ = ∑ c : Fin 32, f c := Fintype.sum_equiv chanOfTile _ _ fun _ => rfl

/-- Zero, then the four tile sums added in turn, is the slab's total: the four-term sum is the sum over the tiles;
    in each tile the channels' sum is moved from innermost to outermost, past the columns and then past the rows;
    and tiles and places in a tile together run over the channels (`sum_by_tiles`). -/
theorem tiles_total (x : Cert.Spec.SX.Idx → EReal) (b : Fin 8) (d : Fin 32) :
    (((0 + tile x b d 0) + tile x b d 1) + tile x b d 2) + tile x b d 3 = Cert.Spec.total x b d := by
  have four : ∑ ct : Fin 4, tile x b d ct = tile x b d 0 + tile x b d 1 + tile x b d 2 + tile x b d 3 :=
    Fin.sum_univ_four _
  have inner : ∀ ct : Fin 4, tile x b d ct
      = ∑ k : Fin 8, ∑ h : Fin 128, ∑ w : Fin 128, x (ix5 b ⟨8 * ct.val + k.val, by omega⟩ d h w) := fun ct =>
    calc tile x b d ct
        = ∑ h : Fin 128, ∑ k : Fin 8, ∑ w : Fin 128, x (ix5 b ⟨8 * ct.val + k.val, by omega⟩ d h w) :=
          Finset.sum_congr rfl fun h _ => Finset.sum_comm
      _ = ∑ k : Fin 8, ∑ h : Fin 128, ∑ w : Fin 128, x (ix5 b ⟨8 * ct.val + k.val, by omega⟩ d h w) :=
          Finset.sum_comm
  rw [zero_add, ← four, Finset.sum_congr rfl fun ct _ => inner ct]
  exact sum_by_tiles fun c => ∑ h : Fin 128, ∑ w : Fin 128, x (ix5 b c d h w)

end Cert.TileTotal

end
-- ==== Proof.SumValue.lean ====
/- What the reduction region leaves in its output array, over the extended reals.

   Point t = 4·b + ct of the grid is handed x[b, 8·ct … 8·ct+7, ·, ·, ·]. A first tile (ct = 0) zeroes the column of 32
   running sums and adds the block's sums; the next three add theirs to the column they find; the last one (ct = 3) also
   stores the column, scaled by the literal 0x36000000, into the output block of batch b, the only block written back for
   that batch. So the output array ends at entry (b, d, 0, 0) with the mean of the slab x[b, ·, d, ·, ·]. -/
import proofs.«145354_j15135464751187_2_alg».proof.Proof.SumRegion
import proofs.«145354_j15135464751187_2_alg».proof.Proof.Payloads
import proofs.«145354_j15135464751187_2_alg».proof.Proof.Spec
import proofs.«145354_j15135464751187_2_alg».proof.Proof.TileTotal
import Idealize.ShloMosaic.Lib.Pipeline.Value
import Idealize.ShloMosaic.Lib.ValueIdx
import Idealize.ShloMosaic.Lib.Tactic

set_option maxRecDepth 16384

noncomputable section

open scoped BigOperators

namespace Cert.KernelIdeal.SumValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## One point: the pieces the body's run left, as the payloads -/

section Pieces
variable {F : FTy → Type} [FloatOps F]
variable (V : (c : Dev nD) → (b : Ref sig .tc) → Buf (Elt F) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- A first tile zeroes the column and adds the block's sums to the zeros: the column it found is not read. -/
theorem colStep_first (c : Dev nD) (t : Fin cfg0.N) (prev : Vec F S32x1x1 .f32) (h0 : atFirst (grid0.coords t)) :
    colStep V c t prev = k0_pay2 (sumBlk V c 0 t) (k0_pay1 (F := F)) := by
  have h1 : ¬atLast (grid0.coords t) := fun h => by
    have a := (atFirst_iff t).mp h0; have b := (atLast_iff t).mp h; omega
  unfold colStep
  rw [dif_pos h0, dif_neg h1]
  rw [View.read_writes_eq_canon _ _ _ (first_cover c _ _ _ _ _ _ _ h0 h1 _)]
  unfold runFirst
  dsimp only
  try sl_unfold_words
  rw [View.canon_cons_unit_zero (S := S32x1x1) hz3, View.readCov_unit_zero (S := S32x1x1) _ hz3]
  simp only [View.readAt_eq_ld, (inM_whole t).read_unread, View.ld_unit_zero (S := S1x8x32x128x128) hz5]

/-- A middle or a last tile adds the block's sums to the column it found. -/
theorem colStep_next (c : Dev nD) (t : Fin cfg0.N) (prev : Vec F S32x1x1 .f32) (h0 : ¬atFirst (grid0.coords t)) :
    colStep V c t prev = k0_pay2 (sumBlk V c 0 t) prev := by
  unfold colStep
  rw [dif_neg h0]
  by_cases h1 : atLast (grid0.coords t)
  · rw [dif_pos h1]
    rw [View.read_writes_eq_canon _ _ _ (last_cover_col c _ _ _ _ _ _ _ h0 h1 _ _)]
    unfold runLast
    dsimp only
    try sl_unfold_words
    rw [View.canon_unit_zero hz3]
    simp only [View.readAt_eq_ld, (inM_whole t).read_unread, (Memref.isWhole_whole cc0_scratch0).read_unread,
      View.ld_unit_zero (S := S1x8x32x128x128) hz5, View.ld_unit_zero (S := S32x1x1) hz3]
  · rw [dif_neg h1]
    rw [View.read_writes_eq_canon _ _ _ (mid_cover c _ _ _ _ _ _ _ h0 h1 _ _)]
    unfold runMid
    dsimp only
    rw [View.canon_unit_zero hz3]
    simp only [View.readAt_eq_ld, (inM_whole t).read_unread, (Memref.isWhole_whole cc0_scratch0).read_unread,
      View.ld_unit_zero (S := S1x8x32x128x128) hz5, View.ld_unit_zero (S := S32x1x1) hz3]

/-- A last tile stores into the output buffer the column it has just updated, scaled and relabelled. -/
theorem outStep_last (c : Dev nD) (t : Fin cfg0.N) (prev : Vec F S32x1x1 .f32) (h0 : ¬atFirst (grid0.coords t))
    (h1 : atLast (grid0.coords t)) : outStep V c t prev = k0_pay3 (k0_pay2 (sumBlk V c 0 t) prev) := by
  unfold outStep
  rw [dif_neg h0, dif_pos h1]
  rw [View.read_writes_eq_canon _ _ _ (last_cover_out c _ _ _ _ _ _ _ h0 h1 _ _)]
  unfold runLast
  dsimp only
  try sl_unfold_words
  rw [View.canon_unit_zero hz4, View.readCov_unit_zero (S := S32x1x1) _ hz3]
  simp only [View.readAt_eq_ld, (inM_whole t).read_unread, (Memref.isWhole_whole cc0_scratch0).read_unread,
    View.ld_unit_zero (S := S1x8x32x128x128) hz5, View.ld_unit_zero (S := S32x1x1) hz3]

end Pieces

/-! ## Along a batch: the column after its last tile -/

section Sums
variable (V : (c : Dev nD) → (b : Ref sig .tc) → Buf (Elt Ideal) ((c : Thread nD τ).loc b))

/-- The two index maps over the grid: point t is batch t / 4 and channel tile t % 4; the other block indices are 0. -/
theorem idx_facts : ∀ t : Fin cfg0.N,
    win0_0.index t (0 : Fin 5) = t.val / 4 ∧ win0_0.index t (1 : Fin 5) = t.val % 4 ∧ win0_0.index t (2 : Fin 5) = 0
    ∧ win0_0.index t (3 : Fin 5) = 0 ∧ win0_0.index t (4 : Fin 5) = 0
    ∧ win0_1.index t (0 : Fin 4) = t.val / 4 ∧ win0_1.index t (1 : Fin 4) = 0 ∧ win0_1.index t (2 : Fin 4) = 0
    ∧ win0_1.index t (3 : Fin 4) = 0 :=
  (by decide +kernel : ∀ t : Fin grid0.N, _)

/-- The input block at point t holds, at (0, k, d, h, w), the input at (t / 4, 8 · (t % 4) + k, d, h, w). -/
theorem sumBlk_apply (c : Dev nD) (t : Fin cfg0.N) (k : Fin 8) (d : Fin 32) (h w : Fin 128) (b : Fin 8) (ch : Fin 32)
    (hb : b.val = t.val / 4) (hch : ch.val = 8 * (t.val % 4) + k.val) :
    (sumBlk V c 0 t : Vec Ideal S1x8x32x128x128 .f32) (ix5 0 k d h w)
      = (V c main_arg0 : Cert.Spec.SX.Idx → EReal) (ix5 b ch d h w) := by
  obtain ⟨e0, e1, e2, e3, e4, -⟩ := idx_facts t
  unfold sumBlk
  rw [View.read_apply]
  show V c main_arg0 _ = V c main_arg0 _
  congr 1
  funext a
  apply Fin.ext
  match a with
  | ⟨0, _⟩ => show win0_0.index t (0 : Fin 5) * 1 + 1 * 0 = b.val; omega
  | ⟨1, _⟩ => show win0_0.index t (1 : Fin 5) * 8 + 1 * k.val = ch.val; omega
  | ⟨2, _⟩ => show win0_0.index t (2 : Fin 5) * 32 + 1 * d.val = d.val; omega
  | ⟨3, _⟩ => show win0_0.index t (3 : Fin 5) * 128 + 1 * h.val = h.val; omega
  | ⟨4, _⟩ => show win0_0.index t (4 : Fin 5) * 128 + 1 * w.val = w.val; omega

/-- A block that holds channel tile ct of batch b sums, at depth d, to the tile's share of the slab's total. -/
theorem tile_of_block (x0 : Vec Ideal S1x8x32x128x128 .f32) (x : Cert.Spec.SX.Idx → EReal) (b : Fin 8) (ct : Fin 4)
    (d : Fin 32)
    (hx : ∀ (k : Fin 8) (h w : Fin 128), x0 (ix5 0 k d h w) = x (ix5 b ⟨8 * ct.val + k.val, by omega⟩ d h w)) :
    ∑ h : Fin 128, ∑ w : Fin 128, ∑ k : Fin 8, x0 (ix5 0 k d h w) = Cert.TileTotal.tile x b d ct := by
  unfold Cert.TileTotal.tile
  exact Finset.sum_congr rfl fun h _ => Finset.sum_congr rfl fun w _ => Finset.sum_congr rfl fun k _ => hx k h w

/-- One tile's update of the column at depth d: what the column held, plus the tile's share. -/
theorem step_apply (x0 : Vec Ideal S1x8x32x128x128 .f32) (prev : Vec Ideal S32x1x1 .f32)
    (x : Cert.Spec.SX.Idx → EReal) (b : Fin 8) (ct : Fin 4) (d : Fin 32)
    (hx : ∀ (k : Fin 8) (h w : Fin 128), x0 (ix5 0 k d h w) = x (ix5 b ⟨8 * ct.val + k.val, by omega⟩ d h w)) :
    k0_pay2 (F := Ideal) x0 prev (ix3 d 0 0) = prev (ix3 d 0 0) + Cert.TileTotal.tile x b d ct :=
  (Pay.pay2_apply x0 prev d).trans (congrArg (fun z => prev (ix3 d 0 0) + z) (tile_of_block x0 x b ct d hx))

/-- After a first tile the column holds the tile's share, added to zero. -/
theorem col_first (c : Dev nD) (t : Fin cfg0.N) (h0 : t.val % 4 = 0) (d : Fin 32) (b : Fin 8) (hb : b.val = t.val / 4) :
    colAt V c t.val t.isLt (ix3 d 0 0) = 0 + Cert.TileTotal.tile (V c main_arg0) b d 0 := by
  rw [colAt_eq V c t, colStep_first V c t _ ((atFirst_iff t).mpr h0)]
  refine (step_apply (sumBlk V c 0 t) (k0_pay1 (F := Ideal)) (V c main_arg0) b 0 d fun k h w =>
    sumBlk_apply V c t k d h w b _ hb (by show 8 * 0 + k.val = _; omega)).trans ?_
  rw [Pay.pay1_apply]

/-- After any other tile it holds what it held, plus the tile's share. -/
theorem col_next (c : Dev nD) (n : ℕ) (hn : n + 1 < cfg0.N) (h0 : (n + 1) % 4 ≠ 0) (d : Fin 32) (b : Fin 8) (ct : Fin 4)
    (hb : b.val = (n + 1) / 4) (hct : ct.val = (n + 1) % 4) :
    colAt V c (n + 1) hn (ix3 d 0 0)
      = colAt V c n (Nat.lt_of_succ_lt hn) (ix3 d 0 0) + Cert.TileTotal.tile (V c main_arg0) b d ct := by
  show colStep V c ⟨n + 1, hn⟩ (colAt V c n (Nat.lt_of_succ_lt hn)) (ix3 d 0 0) = _
  rw [colStep_next V c ⟨n + 1, hn⟩ _ (fun h => h0 ((atFirst_iff ⟨n + 1, hn⟩).mp h))]
  exact step_apply (sumBlk V c 0 ⟨n + 1, hn⟩) (colAt V c n (Nat.lt_of_succ_lt hn)) (V c main_arg0) b ct d fun k h w =>
    sumBlk_apply V c ⟨n + 1, hn⟩ k d h w b _ hb (by show 8 * ct.val + k.val = _; rw [hct])

/-- The column after the last tile of batch b: the four tiles' shares, added in the grid's order to zero. -/
theorem col_batch (c : Dev nD) (b : Fin 8) (d : Fin 32) (hn : 4 * b.val + 3 < cfg0.N) :
    colAt V c (4 * b.val + 3) hn (ix3 d 0 0)
      = (((0 + Cert.TileTotal.tile (V c main_arg0) b d 0) + Cert.TileTotal.tile (V c main_arg0) b d 1)
          + Cert.TileTotal.tile (V c main_arg0) b d 2) + Cert.TileTotal.tile (V c main_arg0) b d 3 := by
  have e3 := col_next V c (4 * b.val + 2) hn (by omega) d b 3 (by omega) (by show 3 = _; omega)
  have e2 := col_next V c (4 * b.val + 1) (by omega) (by omega) d b 2 (by omega) (by show 2 = _; omega)
  have e1 := col_next V c (4 * b.val) (by omega) (by omega) d b 1 (by omega) (by show 1 = _; omega)
  have e0 := col_first V c ⟨4 * b.val, by omega⟩ (by show (4 * b.val) % 4 = 0; omega) d b (by show b.val = (4 * b.val) / 4; omega)
  exact e3.trans (congrArg (fun z => z + Cert.TileTotal.tile (V c main_arg0) b d 3)
    (e2.trans (congrArg (fun z => z + Cert.TileTotal.tile (V c main_arg0) b d 2)
      (e1.trans (congrArg (fun z => z + Cert.TileTotal.tile (V c main_arg0) b d 1) e0)))))

/-- The same at a point named as a last tile. -/
theorem col_last (c : Dev nD) (t : Fin cfg0.N) (h3 : t.val % 4 = 3) (b : Fin 8) (hb : b.val = t.val / 4) (d : Fin 32) :
    colAt V c t.val t.isLt (ix3 d 0 0)
      = (((0 + Cert.TileTotal.tile (V c main_arg0) b d 0) + Cert.TileTotal.tile (V c main_arg0) b d 1)
          + Cert.TileTotal.tile (V c main_arg0) b d 2) + Cert.TileTotal.tile (V c main_arg0) b d 3 := by
  obtain ⟨tv, ht⟩ := t
  have e : tv = 4 * b.val + 3 := by dsimp only at h3 hb; omega
  subst e
  exact col_batch V c b d ht

end Sums

/-! ## The output array after the region -/

/-- The slabs' means laid out as the output array: entry (b, d, 0, 0) is the mean of the slab of batch b and depth d. -/
def meanCol (x : Cert.Spec.SX.Idx → EReal) : S8x32x1x1.Idx → EReal :=
  fun j => Cert.Spec.mean x ⟨(j 0).val, (j 0).isLt⟩ ⟨(j 1).val, (j 1).isLt⟩

/-- What a last tile stores: at the entry of depth d, the column it has just updated there, times the literal. -/
theorem out_apply (x0 : Vec Ideal S1x8x32x128x128 .f32) (prev : Vec Ideal S32x1x1 .f32) (j : S1x32x1x1.Idx) (d : Fin 32)
    (hd : (j 1).val = d.val) :
    k0_pay3 (F := Ideal) (k0_pay2 x0 prev) j
      = k0_pay2 (F := Ideal) x0 prev (ix3 d 0 0) * Ideal.ofBits .f32 0x36000000#32 := by
  have ej : j = ix4 0 d 0 0 := by
    funext a; apply Fin.ext
    match a with
    | ⟨0, _⟩ => show (j 0).val = 0; have : (j 0).val < 1 := (j 0).isLt; omega
    | ⟨1, _⟩ => exact hd
    | ⟨2, _⟩ => show (j 2).val = 0; have : (j 2).val < 1 := (j 2).isLt; omega
    | ⟨3, _⟩ => show (j 3).val = 0; have : (j 3).val < 1 := (j 3).isLt; omega
  rw [ej]
  exact Pay.pay3_apply (k0_pay2 x0 prev) d

section Final
variable (V : (c : Dev nD) → (b : Ref sig .tc) → Buf (Elt Ideal) ((c : Thread nD τ).loc b))

/-- What a last tile writes back is its block of the array of means. -/
theorem flushed_eq (c : Dev nD) (t : Fin cfg0.N) (hf : (cfg0.win 1).flush t = true) :
    (sumDat (F := Ideal) V c).flushed 1 t
      = ((cfg0.win 1).blk t).view.read (Elt Ideal) (meanCol (V c main_arg0)) := by
  have h3 : t.val % 4 = 3 := (flush0_1 t).mp hf
  have h0 : ¬atFirst (grid0.coords t) := fun h => by have := (atFirst_iff t).mp h; omega
  have h1 : atLast (grid0.coords t) := (atLast_iff t).mpr h3
  have hN : t.val < 32 := lt_of_lt_of_eq t.isLt (show cfg0.N = 32 from N_0)
  obtain ⟨-, -, -, -, -, i0, i1, -, -⟩ := idx_facts t
  have ecol : k0_pay2 (F := Ideal) (sumBlk V c 0 t) (colBefore V c t.val (Nat.le_of_lt t.isLt)) = colAt V c t.val t.isLt :=
    ((colAt_eq V c t).trans (colStep_next V c t (colBefore V c t.val (Nat.le_of_lt t.isLt)) h0)).symm
  show (cfg0.win 1).cut (grid0.coords t) ((sumDat V c).after 1 t) = _
  rw [sumDat_after_out, outStep_last V c t (colBefore V c t.val (Nat.le_of_lt t.isLt)) h0 h1]
  funext y
  have y0 : (y 0).val < 1 := (y 0).isLt
  have y1 : (y 1).val < 32 := (y 1).isLt
  have etot : k0_pay2 (F := Ideal) (sumBlk V c 0 t) (colBefore V c t.val (Nat.le_of_lt t.isLt)) (ix3 (⟨(y 1).val, y1⟩ : Fin 32) 0 0)
      = Cert.Spec.total (V c main_arg0) ⟨t.val / 4, by omega⟩ ⟨(y 1).val, y1⟩ :=
    (congrFun ecol (ix3 (⟨(y 1).val, y1⟩ : Fin 32) 0 0)).trans
      ((col_last V c t h3 ⟨t.val / 4, by omega⟩ rfl ⟨(y 1).val, y1⟩).trans
        (Cert.TileTotal.tiles_total (V c main_arg0) ⟨t.val / 4, by omega⟩ ⟨(y 1).val, y1⟩))
  refine (out_apply (sumBlk V c 0 t) (colBefore V c t.val (Nat.le_of_lt t.isLt))
    ((cfg0.win 1).xinj (grid0.coords t) y) ⟨(y 1).val, y1⟩ rfl).trans ?_
  refine (congrArg (fun z => z * Ideal.ofBits .f32 0x36000000#32) etot).trans ?_
  rw [View.read_apply]
  show Cert.Spec.mean (V c main_arg0) ⟨t.val / 4, by omega⟩ ⟨(y 1).val, y1⟩
    = meanCol (V c main_arg0) (((cfg0.win 1).blk t).view.emb y)
  unfold meanCol
  congr 1 <;> apply Fin.ext
  · show t.val / 4 = win0_1.index t (0 : Fin 4) * 1 + 1 * (y 0).val; omega
  · show (y 1).val = win0_1.index t (1 : Fin 4) * 32 + 1 * (y 1).val; omega

/-- An entry of the output array is in point t's block when each coordinate is in the block's range on its axis. -/
theorem mem_blk (t : Fin cfg0.N) (i : S8x32x1x1.Idx) :
    i ∈ ((cfg0.win 1).blk t).view.set ↔ ∀ a : Fin 4, win0_1.index t a * S1x32x1x1.size a ≤ (i a).val
      ∧ (i a).val < win0_1.index t a * S1x32x1x1.size a + S1x32x1x1.size a := by
  show i ∈ ((View.whole main_v0).slice (win0_1.rect t)).set ↔ _
  rw [View.set_slice_whole, Rect.mem_set_unit]
  exact Iff.rfl

/-- After the region the output array holds the means: batch b's block is written back by the last tile of batch b. -/
theorem sum_final (c : Dev nD) : (sumDat (F := Ideal) V c).arrAt 1 cfg0.N = meanCol (V c main_arg0) :=
  (sumDat (F := Ideal) V c).arrAt_eq_of_cover 1 (meanCol (V c main_arg0)) (flushed_eq V c) fun (i : S8x32x1x1.Idx) => by
    have hN : cfg0.N = 32 := N_0
    have b0 : (i 0).val < 8 := (i 0).isLt
    have b1 : (i 1).val < 32 := (i 1).isLt
    have b2 : (i 2).val < 1 := (i 2).isLt
    have b3 : (i 3).val < 1 := (i 3).isLt
    have ht : 4 * (i 0).val + 3 < cfg0.N := by omega
    obtain ⟨-, -, -, -, -, e0, e1, e2, e3⟩ := idx_facts ⟨4 * (i 0).val + 3, ht⟩
    have e0' : win0_1.index ⟨4 * (i 0).val + 3, ht⟩ (0 : Fin 4) = (4 * (i 0).val + 3) / 4 := e0
    refine ⟨⟨4 * (i 0).val + 3, ht⟩, (flush0_1 _).mpr (by show (4 * (i 0).val + 3) % 4 = 3; omega), ?_⟩
    rw [mem_blk]
    intro a
    match a with
    | ⟨0, _⟩ =>
      show win0_1.index ⟨4 * (i 0).val + 3, ht⟩ (0 : Fin 4) * 1 ≤ (i 0).val
        ∧ (i 0).val < win0_1.index ⟨4 * (i 0).val + 3, ht⟩ (0 : Fin 4) * 1 + 1
      omega
    | ⟨1, _⟩ =>
      show win0_1.index ⟨4 * (i 0).val + 3, ht⟩ (1 : Fin 4) * 32 ≤ (i 1).val
        ∧ (i 1).val < win0_1.index ⟨4 * (i 0).val + 3, ht⟩ (1 : Fin 4) * 32 + 32
      omega
    | ⟨2, _⟩ =>
      show win0_1.index ⟨4 * (i 0).val + 3, ht⟩ (2 : Fin 4) * 1 ≤ (i 2).val
        ∧ (i 2).val < win0_1.index ⟨4 * (i 0).val + 3, ht⟩ (2 : Fin 4) * 1 + 1
      omega
    | ⟨3, _⟩ =>
      show win0_1.index ⟨4 * (i 0).val + 3, ht⟩ (3 : Fin 4) * 1 ≤ (i 3).val
        ∧ (i 3).val < win0_1.index ⟨4 * (i 0).val + 3, ht⟩ (3 : Fin 4) * 1 + 1
      omega

end Final

end Cert.KernelIdeal.SumValue

end
-- ==== Proof.MulValue.lean ====
/-
  What the multiplying call leaves in its result array, at the exact (extended real) values.

  The call walks an 8 × 8 grid; point (b, j) multiplies the block x[b, 4j … 4j+3, :, :, :] of the first operand by the
  column s[b, :, 0, 0] of the second, channel by channel of the block's third axis, and writes the products back as
  block (b, j) of the result. Every entry of the result lies in exactly one such block, so the result array ends
  holding, at (b, c, d, h, w), the product x[b, c, d, h, w] · s[b, d, 0, 0].
-/
import proofs.«145354_j15135464751187_2_alg».proof.Proof.MulRegion
import proofs.«145354_j15135464751187_2_alg».proof.Proof.Payloads
import Idealize.ShloMosaic.Lib.Pipeline.Value
import Idealize.ShloMosaic.Lib.ValueIdx

noncomputable section

namespace Cert.KernelIdeal.MulValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem zeros5 : (![0, 0, 0, 0, 0] : Fin 5 → Nat) = fun _ => 0 := funext fun a => by fin_cases a <;> rfl
theorem zeros4 : (![0, 0, 0, 0] : Fin 4 → Nat) = fun _ => 0 := funext fun a => by fin_cases a <;> rfl

/-- Every entry of x times the entry of the column array at its batch and depth. -/
abbrev scaled (x : S8x32x32x128x128.Idx → EReal) (s : S8x32x1x1.Idx → EReal) : S8x32x32x128x128.Idx → EReal :=
  fun i => x i * s (ix4 ⟨(i 0).val, (i 0).isLt⟩ ⟨(i 2).val, (i 2).isLt⟩ 0 0)

theorem scaled_apply (x : S8x32x32x128x128.Idx → EReal) (s : S8x32x1x1.Idx → EReal) (i : S8x32x32x128x128.Idx) :
    scaled x s i = x i * s (ix4 ⟨(i 0).val, (i 0).isLt⟩ ⟨(i 2).val, (i 2).isLt⟩ 0 0) := rfl

/-- At the index (b, c, d, h, w): x[b, c, d, h, w] · s[b, d, 0, 0]. -/
theorem scaled_ix5 (x : S8x32x32x128x128.Idx → EReal) (s : S8x32x1x1.Idx → EReal)
    (b : Fin 8) (c : Fin 32) (d : Fin 32) (h w : Fin 128) :
    scaled x s (ix5 b c d h w) = x (ix5 b c d h w) * s (ix4 b d 0 0) := rfl

/-- What the body leaves in the result's buffer, at an index: the block's entry times the column's entry of its
    depth. -/
theorem mulOut_apply (x0 : Vec Ideal S1x4x32x128x128 .f32) (x1 : Vec Ideal S1x32x1x1 .f32)
    (k : Fin 4) (d : Fin 32) (h w : Fin 128) :
    mulOut x0 x1 (ix5 0 k d h w) = x0 (ix5 0 k d h w) * x1 (ix4 0 d 0 0) := by
  unfold mulOut
  rw [View.canon_unit_zero zeros5, View.ld_unit_zero (S := S1x32x1x1) zeros4,
    View.ld_unit_zero (S := S1x4x32x128x128) zeros5]
  exact Pay.mul_apply x1 x0 k d h w

/-- The three index maps, decided over the 64 grid points: the operand's window and the result's select the same
    block; the column's window selects the row of the same batch; every other block index is zero. -/
theorem idx_facts : ∀ t : Fin cfg1.N,
    win1_0.index t (0 : Fin 5) = win1_2.index t (0 : Fin 5)
    ∧ win1_0.index t (1 : Fin 5) = win1_2.index t (1 : Fin 5)
    ∧ win1_0.index t (2 : Fin 5) = 0 ∧ win1_0.index t (3 : Fin 5) = 0 ∧ win1_0.index t (4 : Fin 5) = 0
    ∧ win1_2.index t (2 : Fin 5) = 0 ∧ win1_2.index t (3 : Fin 5) = 0 ∧ win1_2.index t (4 : Fin 5) = 0
    ∧ win1_1.index t (0 : Fin 4) = win1_2.index t (0 : Fin 5)
    ∧ win1_1.index t (1 : Fin 4) = 0 ∧ win1_1.index t (2 : Fin 4) = 0 ∧ win1_1.index t (3 : Fin 4) = 0
    ∧ win1_2.index t (0 : Fin 5) ≤ 7 ∧ win1_2.index t (1 : Fin 5) ≤ 7 :=
  (by decide +kernel : ∀ t : Fin grid1.N, _)

/-- Every block (b, j) of the result is some point's. -/
theorem idx_onto : ∀ (q0 : Fin 8) (q1 : Fin 8), ∃ t : Fin cfg1.N, win1_2.index t = ![q0.val, q1.val, 0, 0, 0] :=
  (by decide +kernel : ∀ (q0 : Fin 8) (q1 : Fin 8), ∃ t : Fin grid1.N, win1_2.index t = ![q0.val, q1.val, 0, 0, 0])

/-- The operand's block at point t, read at an index of the block, is the operand at the index of the array that sits,
    on each axis, at the block index times the block's size plus the coordinate inside the block. -/
theorem blk0_apply (c : Dev nD) (t : Fin cfg1.N) (j : S1x4x32x128x128.Idx) (i : S8x32x32x128x128.Idx)
    (h0 : (i 0).val = win1_0.index t (0 : Fin 5) * 1 + (j 0).val)
    (h1 : (i 1).val = win1_0.index t (1 : Fin 5) * 4 + (j 1).val)
    (h2 : (i 2).val = win1_0.index t (2 : Fin 5) * 32 + (j 2).val)
    (h3 : (i 3).val = win1_0.index t (3 : Fin 5) * 128 + (j 3).val)
    (h4 : (i 4).val = win1_0.index t (4 : Fin 5) * 128 + (j 4).val) :
    (mulBlk V c 0 t : Vec Ideal S1x4x32x128x128 .f32) j = (V c main_arg0 : S8x32x32x128x128.Idx → EReal) i := by
  unfold mulBlk
  rw [View.read_apply]
  show V c main_arg0 _ = V c main_arg0 _
  refine congrArg _ ?_
  funext a
  apply Fin.ext
  match a with
  | ⟨0, _⟩ => show win1_0.index t (0 : Fin 5) * 1 + 1 * (j 0).val = (i 0).val; omega
  | ⟨1, _⟩ => show win1_0.index t (1 : Fin 5) * 4 + 1 * (j 1).val = (i 1).val; omega
  | ⟨2, _⟩ => show win1_0.index t (2 : Fin 5) * 32 + 1 * (j 2).val = (i 2).val; omega
  | ⟨3, _⟩ => show win1_0.index t (3 : Fin 5) * 128 + 1 * (j 3).val = (i 3).val; omega
  | ⟨4, _⟩ => show win1_0.index t (4 : Fin 5) * 128 + 1 * (j 4).val = (i 4).val; omega

/-- The same for the column's block. -/
theorem blk1_apply (c : Dev nD) (t : Fin cfg1.N) (j : S1x32x1x1.Idx) (i : S8x32x1x1.Idx)
    (h0 : (i 0).val = win1_1.index t (0 : Fin 4) * 1 + (j 0).val)
    (h1 : (i 1).val = win1_1.index t (1 : Fin 4) * 32 + (j 1).val)
    (h2 : (i 2).val = win1_1.index t (2 : Fin 4) * 1 + (j 2).val)
    (h3 : (i 3).val = win1_1.index t (3 : Fin 4) * 1 + (j 3).val) :
    (mulBlk V c 1 t : Vec Ideal S1x32x1x1 .f32) j = (V c main_v0 : S8x32x1x1.Idx → EReal) i := by
  unfold mulBlk
  rw [View.read_apply]
  show V c main_v0 _ = V c main_v0 _
  refine congrArg _ ?_
  funext a
  apply Fin.ext
  match a with
  | ⟨0, _⟩ => show win1_1.index t (0 : Fin 4) * 1 + 1 * (j 0).val = (i 0).val; omega
  | ⟨1, _⟩ => show win1_1.index t (1 : Fin 4) * 32 + 1 * (j 1).val = (i 1).val; omega
  | ⟨2, _⟩ => show win1_1.index t (2 : Fin 4) * 1 + 1 * (j 2).val = (i 2).val; omega
  | ⟨3, _⟩ => show win1_1.index t (3 : Fin 4) * 1 + 1 * (j 3).val = (i 3).val; omega

/-- What point t leaves in the result's buffer, at the index (0, k, d, h, w) of the block, is the products' array at
    the index of the result array under it. -/
theorem flushed_apply (c : Dev nD) (t : Fin cfg1.N) (u : Fin 1) (k : Fin 4) (d : Fin 32) (h w : Fin 128) :
    (cfg1.win 2).cut (grid1.coords t) (mulOut (mulBlk V c 0 t) (mulBlk V c 1 t)) (ix5 u k d h w)
      = ((cfg1.win 2).blk t).view.read (Elt Ideal) (scaled (V c main_arg0) (V c main_v0)) (ix5 u k d h w) := by
  obtain rfl : u = 0 := Subsingleton.elim _ _
  obtain ⟨f0, f1, f2, f3, f4, g2, g3, g4, c0, c1, c2, c3, b0, b1⟩ := idx_facts t
  rw [View.read_apply]
  show mulOut (mulBlk V c 0 t) (mulBlk V c 1 t) (ix5 0 k d h w)
    = scaled (V c main_arg0) (V c main_v0) (((cfg1.win 2).blk t).view.emb (ix5 0 k d h w))
  refine (mulOut_apply _ _ k d h w).trans ?_
  refine congr (congrArg HMul.hMul (blk0_apply V c t _ _ ?_ ?_ ?_ ?_ ?_)) (blk1_apply V c t _ _ ?_ ?_ ?_ ?_)
  · show win1_2.index t (0 : Fin 5) * 1 + 1 * (0 : Fin 1).val = win1_0.index t (0 : Fin 5) * 1 + (0 : Fin 1).val
    omega
  · show win1_2.index t (1 : Fin 5) * 4 + 1 * k.val = win1_0.index t (1 : Fin 5) * 4 + k.val
    omega
  · show win1_2.index t (2 : Fin 5) * 32 + 1 * d.val = win1_0.index t (2 : Fin 5) * 32 + d.val
    omega
  · show win1_2.index t (3 : Fin 5) * 128 + 1 * h.val = win1_0.index t (3 : Fin 5) * 128 + h.val
    omega
  · show win1_2.index t (4 : Fin 5) * 128 + 1 * w.val = win1_0.index t (4 : Fin 5) * 128 + w.val
    omega
  · show win1_2.index t (0 : Fin 5) * 1 + 1 * (0 : Fin 1).val = win1_1.index t (0 : Fin 4) * 1 + (0 : Fin 1).val
    omega
  · show win1_2.index t (2 : Fin 5) * 32 + 1 * d.val = win1_1.index t (1 : Fin 4) * 32 + d.val
    omega
  · show (0 : Fin 1).val = win1_1.index t (2 : Fin 4) * 1 + (0 : Fin 1).val
    omega
  · show (0 : Fin 1).val = win1_1.index t (3 : Fin 4) * 1 + (0 : Fin 1).val
    omega

/-- What point t writes back is block t of the products. -/
theorem flushed_eq (c : Dev nD) (t : Fin cfg1.N) :
    (mulDat (F := Ideal) V c).flushed 2 t
      = ((cfg1.win 2).blk t).view.read (Elt Ideal) (scaled (V c main_arg0) (V c main_v0)) := by
  show (cfg1.win 2).cut (grid1.coords t) ((mulDat V c).after 2 t) = _
  rw [mulDat_after2]
  funext y
  have hy : y = ix5 (n0 := 1) (n1 := 4) (n2 := 32) (n3 := 128) (n4 := 128) (y 0) (y 1) (y 2) (y 3) (y 4) :=
    eq_ix5 y
  rw [hy]
  exact flushed_apply V c t _ _ _ _ _

/-- An index of the result array is in point t's block iff each coordinate is in the block's range on its axis. -/
theorem mem_blk (t : Fin cfg1.N) (i : S8x32x32x128x128.Idx) :
    i ∈ ((cfg1.win 2).blk t).view.set ↔ ∀ a : Fin 5, win1_2.index t a * S1x4x32x128x128.size a ≤ (i a).val
      ∧ (i a).val < win1_2.index t a * S1x4x32x128x128.size a + S1x4x32x128x128.size a := by
  show i ∈ ((View.whole main_v1).slice (win1_2.rect t)).set ↔ _
  rw [View.set_slice_whole, Rect.mem_set_unit]
  exact Iff.rfl

/-- Every index (b, c, d, h, w) of the result array is in the block of the point whose block index is (b, c / 4). -/
theorem covered (i : S8x32x32x128x128.Idx) :
    ∃ t : Fin cfg1.N, (cfg1.win 2).flush t = true ∧ i ∈ ((cfg1.win 2).blk t).view.set := by
  have hi0 : (i 0).val < 8 := (i 0).isLt
  have hi1 : (i 1).val < 32 := (i 1).isLt
  have hi2 : (i 2).val < 32 := (i 2).isLt
  have hi3 : (i 3).val < 128 := (i 3).isLt
  have hi4 : (i 4).val < 128 := (i 4).isLt
  obtain ⟨t, ht⟩ := idx_onto ⟨(i 0).val, hi0⟩ ⟨(i 1).val / 4, by omega⟩
  have q0 : win1_2.index t (0 : Fin 5) = (i 0).val := congrFun ht 0
  have q1 : win1_2.index t (1 : Fin 5) = (i 1).val / 4 := congrFun ht 1
  have q2 : win1_2.index t (2 : Fin 5) = 0 := congrFun ht 2
  have q3 : win1_2.index t (3 : Fin 5) = 0 := congrFun ht 3
  have q4 : win1_2.index t (4 : Fin 5) = 0 := congrFun ht 4
  refine ⟨t, flush1_2 t, ?_⟩
  rw [mem_blk]
  intro a
  match a with
  | ⟨0, _⟩ =>
    show win1_2.index t (0 : Fin 5) * 1 ≤ (i 0).val ∧ (i 0).val < win1_2.index t (0 : Fin 5) * 1 + 1
    omega
  | ⟨1, _⟩ =>
    show win1_2.index t (1 : Fin 5) * 4 ≤ (i 1).val ∧ (i 1).val < win1_2.index t (1 : Fin 5) * 4 + 4
    omega
  | ⟨2, _⟩ =>
    show win1_2.index t (2 : Fin 5) * 32 ≤ (i 2).val ∧ (i 2).val < win1_2.index t (2 : Fin 5) * 32 + 32
    omega
  | ⟨3, _⟩ =>
    show win1_2.index t (3 : Fin 5) * 128 ≤ (i 3).val ∧ (i 3).val < win1_2.index t (3 : Fin 5) * 128 + 128
    omega
  | ⟨4, _⟩ =>
    show win1_2.index t (4 : Fin 5) * 128 ≤ (i 4).val ∧ (i 4).val < win1_2.index t (4 : Fin 5) * 128 + 128
    omega

/-- The result array after the call: every entry of the operand times the entry of the column array at its batch
    and depth. -/
theorem mul_final (c : Dev nD) :
    (mulDat (F := Ideal) V c).arrAt 2 cfg1.N
      = scaled (V c main_arg0) (V c main_v0) :=
  (mulDat (F := Ideal) V c).arrAt_eq_of_cover 2 (scaled (V c main_arg0) (V c main_v0))
    (fun t _ => flushed_eq V c t) covered

end Cert.KernelIdeal.MulValue

end
-- ==== Proof.KernelSpec.lean ====
/-
  The kernel's result is the specification.

  After the run the result array holds what the multiplication region's write-backs leave: every entry of the
  input times the entry of the column array at its batch and depth. The column array is what the reduction region's
  write-backs left: at (b, d) the mean of the slab x[b, ·, d, ·, ·]. The input array is the same in both regions,
  as launched. Together: entry (b, c, d, h, w) of the result is x[b, c, d, h, w] times the mean of its slab.
-/
import proofs.«145354_j15135464751187_2_alg».proof.Proof.MainRun
import proofs.«145354_j15135464751187_2_alg».proof.Proof.SumValue
import proofs.«145354_j15135464751187_2_alg».proof.Proof.MulValue
import proofs.«145354_j15135464751187_2_alg».proof.Proof.Spec

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Hand

/-- The multiplication region's final array, entered from the contents the reduction region leaves, is the
    specification of the launch contents of the argument. -/
theorem result_eq (m : (ℓ : Loc nD τ sig) → Buf (Elt Ideal) ℓ) (c : Dev nD) :
    (mulDat (F := Ideal) (E1 m) c).arrAt 2 cfg1.N = Cert.Spec.G (m ((c : Thread nD τ).loc main_arg0)) := by
  rw [Cert.KernelIdeal.MulValue.mul_final (E1 m) c, E1_col m c, Cert.KernelIdeal.SumValue.sum_final (E0 m) c, E1_arg m c]
  rfl

end Cert.KernelIdeal.Result

end
-- ==== Proof.RefSpec.lean ====
/-
  The reference program's result, at the exact (extended real) values, is the specification function.

  The reference sums the input x[b, c, d, h, w] over the axes 1, 3, 4 into an array indexed by (b, d), divides each
  sum by 524288 = 2¹⁹ = 32 · 128 · 128, broadcasts the quotient back over the reduced axes and multiplies the input by
  it. Three facts make this the specification:

  * the sum over the axes 1, 3, 4 of a rank-5 array, read at the index (b, d), is the initial value plus the triple
    sum over the three reduced coordinates: the indices that drop to (b, d) are exactly (b, c, d, h, w), one for each
    triple (c, h, w);
  * the binary words 0x49000000 and 0x36000000 denote 2¹⁹ and 2⁻¹⁹, so dividing by the first is multiplying by the
    second, at the infinities too;
  * the two broadcasts read the quotient at (b, d) from the index (b, c, d, h, w).
-/
import proofs.«145354_j15135464751187_2_alg».proof.Proof.Gen.ReferenceIdeal.Read
import proofs.«145354_j15135464751187_2_alg».proof.Proof.Spec
import Idealize.ShloMosaic.Lib.ValueIdx
import Idealize.ShloMosaic.PureOps.Ideal.Laws

noncomputable section

open scoped BigOperators

namespace Cert.RefSpec

open Idealize.ShloMosaic Idealize.ShloMosaic.ValueIdx

/-! ### The two constants -/

/-- The word 0x49000000 denotes 2¹⁹ = 524288. -/
theorem word_two_pow_19 : Ideal.ofBits .f32 0x49000000#32 = ((524288 : ℝ) : EReal) := by
  simp [Ideal.ofBits, Ideal.ieee, -EReal.coe_mul]; norm_num

/-- The word 0x36000000 denotes 2⁻¹⁹ = 1 / 524288. -/
theorem word_two_pow_neg_19 : Ideal.ofBits .f32 0x36000000#32 = (((1 : ℝ) / 524288 : ℝ) : EReal) := by
  simp [Ideal.ofBits, Ideal.ieee, -EReal.coe_mul]; norm_num

/-- Dividing by 2¹⁹ is multiplying by 2⁻¹⁹, for every extended real. -/
theorem div_word (a : EReal) :
    Ideal.div a (Ideal.ofBits .f32 0x49000000#32) = a * Ideal.ofBits .f32 0x36000000#32 := by
  rw [word_two_pow_19, word_two_pow_neg_19]
  exact Ideal.div_coe (by norm_num) a

/-! ### Rank 5, the axes 1, 3 and 4 summed -/

section Sum134

variable {n0 n1 n2 n3 n4 : Nat}

/-- Dropping the axes 1, 3, 4 of a rank-5 index keeps the coordinates 0, 2. -/
theorem drop_134_ix5 (h' : (⟨5, ![n0, n1, n2, n3, n4]⟩ : Shape).ReducesTo [1, 3, 4] ⟨2, ![n0, n2]⟩)
    (b0 : Fin n0) (b1 : Fin n1) (b2 : Fin n2) (b3 : Fin n3) (b4 : Fin n4) :
    h'.drop (ix5 b0 b1 b2 b3 b4) = ix2 b0 b2 := by
  funext b
  match b with
  | ⟨0, _⟩ => rfl
  | ⟨1, _⟩ => rfl

/-- The host's float sum over the axes 1, 3, 4 of a rank-5 array at the index (a0, a2): the initial value plus the
    triple sum over the reduced coordinates. -/
theorem hostReduceAdd_134 (h' : (⟨5, ![n0, n1, n2, n3, n4]⟩ : Shape).ReducesTo [1, 3, 4] ⟨2, ![n0, n2]⟩)
    (x : (⟨5, ![n0, n1, n2, n3, n4]⟩ : Shape).Idx → EReal) (init : EReal) (a0 : Fin n0) (a2 : Fin n2) :
    Ideal.hostReduceAdd h' x init (ix2 a0 a2)
      = init + ∑ c : Fin n1, ∑ h : Fin n3, ∑ w : Fin n4, x (ix5 a0 c a2 h w) := by
  unfold Ideal.hostReduceAdd
  refine congrArg (fun z => init + z) ?_
  have hp : ∑ c : Fin n1, ∑ h : Fin n3, ∑ w : Fin n4, x (ix5 a0 c a2 h w)
      = ∑ p : Fin n1 × Fin n3 × Fin n4, x (ix5 a0 p.1 a2 p.2.1 p.2.2) := by
    simp only [Fintype.sum_prod_type]
  rw [hp]
  have hinv : ∀ i ∈ Finset.univ.filter (fun i => h'.drop i = ix2 a0 a2),
      ix5 a0 (i 1 : Fin n1) a2 (i 3 : Fin n3) (i 4 : Fin n4) = i := by
    intro i hi
    have hi' := (Finset.mem_filter.1 hi).2
    obtain ⟨b0, b1, b2, b3, b4, rfl⟩ : ∃ b0 b1 b2 b3 b4, i = ix5 b0 b1 b2 b3 b4 :=
      ⟨_, _, _, _, _, eq_ix5 i⟩
    rw [drop_134_ix5] at hi'
    have he0 := congrFun hi' ⟨0, (by decide : 0 < 2)⟩
    have e0 : b0 = a0 := he0
    have he2 := congrFun hi' ⟨1, (by decide : 1 < 2)⟩
    have e2 : b2 = a2 := he2
    subst e0 e2
    rfl
  refine Finset.sum_nbij' (fun i => ((i 1 : Fin n1), (i 3 : Fin n3), (i 4 : Fin n4)))
    (fun p => ix5 a0 p.1 a2 p.2.1 p.2.2) ?_ ?_ ?_ ?_ ?_
  · intro i _; exact Finset.mem_univ _
  · intro p _; exact Finset.mem_filter.2 ⟨Finset.mem_univ _, drop_134_ix5 h' _ _ _ _ _⟩
  · exact hinv
  · intro p _; rfl
  · intro i hi; exact congrArg x (hinv i hi).symm

end Sum134

/-! ### The reference -/

/-- The reference's sum over the axes 1, 3, 4, read at (b, d), is the slab's total. -/
theorem val_main_v0_apply (x : (⟨Cert.ReferenceIdeal.S8x32x32x128x128, .f32⟩ : BufTy).Contents (Elt Ideal))
    (b : Fin 8) (d : Fin 32) :
    Cert.ReferenceIdeal.Read.val_main_v0 (F := Ideal) x (ix2 b d) = Cert.Spec.total x b d := by
  unfold Cert.ReferenceIdeal.Read.val_main_v0 Cert.Spec.total
  refine (hostReduceAdd_134 Cert.ReferenceIdeal.Gen.reducesTo_S8x32x32x128x128_S8x32_d1_3_4 x _ b d).trans ?_
  rw [Cert.ReferenceIdeal.Read.val_main_cst_apply, Ideal.ofBits_def, Ideal.ofBits_zero_f32, zero_add]

/-- The two broadcasts read the quotient of the slab (b, d) at the index (b, c, d, h, w). -/
theorem idx_ix5 (b : Fin 8) (c : Fin 32) (d : Fin 32) (h w : Fin 128) :
    Cert.ReferenceIdeal.Read.idx_main_v3 (Cert.ReferenceIdeal.Read.idx_main_v4 (ix5 b c d h w)) = ix2 b d := by
  funext a
  match a with
  | ⟨0, _⟩ => rfl
  | ⟨1, _⟩ => rfl

/-- The reference's result at the index (b, c, d, h, w) is the entry there times the mean of its slab. -/
theorem ref_apply (x : (⟨Cert.ReferenceIdeal.S8x32x32x128x128, .f32⟩ : BufTy).Contents (Elt Ideal))
    (b : Fin 8) (c : Fin 32) (d : Fin 32) (h w : Fin 128) :
    Cert.ReferenceIdeal.Read.val_main_v5 (F := Ideal) x (ix5 b c d h w) = Cert.Spec.G x (ix5 b c d h w) := by
  rw [Cert.ReferenceIdeal.Read.val_main_v5_apply, Cert.ReferenceIdeal.Read.val_main_v4_apply,
    Cert.ReferenceIdeal.Read.val_main_v3_apply, Cert.ReferenceIdeal.Read.val_main_v2_apply,
    Cert.ReferenceIdeal.Read.val_main_v1_apply, Cert.ReferenceIdeal.Read.val_main_cst_0_apply,
    idx_ix5, val_main_v0_apply, Ideal.hostDivf_def, Ideal.mulf_def, Ideal.ofBits_def, div_word,
    Cert.Spec.G_apply]
  rfl

/-- The reference's result is the specification function. -/
theorem ref_eq (x : (⟨Cert.ReferenceIdeal.S8x32x32x128x128, .f32⟩ : BufTy).Contents (Elt Ideal)) :
    Cert.ReferenceIdeal.Read.val_main_v5 (F := Ideal) x = Cert.Spec.G x := by
  funext i
  have hi : i = ix5 (n0 := 8) (n1 := 32) (n2 := 32) (n3 := 128) (n4 := 128) (i 0) (i 1) (i 2) (i 3) (i 4) :=
    eq_ix5 i
  rw [hi]
  exact ref_apply x _ _ _ _ _

end Cert.RefSpec

end
-- ==== Proof.lean ====
/-
  The certificate of the slab-mean scaling kernel against its reference.

  Both programs take x of shape [8, 32, 32, 128, 128] and return x[b, c, d, h, w] · mean(x[b, ·, d, ·, ·]).
  The kernel does it in two pallas_calls: a reduction over a grid of 8 batches by 4 channel tiles that accumulates
  the slab sums in a scratch column and, at the last tile, writes the column scaled by 2⁻¹⁹ = 1 / (32 · 128 · 128);
  then a blockwise multiplication of x by the column broadcast along channels, rows and columns. The reference
  sums over the three axes at once, divides by 2¹⁹, broadcasts and multiplies.

  Over the extended reals the two agree entry by entry with no finiteness needed: the order and grouping of a sum
  do not matter in a commutative monoid, adding onto a zeroed accumulator adds nothing, and dividing by 2¹⁹ is
  multiplying by 2⁻¹⁹ for every extended real. The precondition is never opened.

  The frames: each program's run is assembled from its two regions (`Hand.run`), each region from its kernel
  body's triple and the proof data stating what its buffers hold after every grid point; the reference's frame is
  its run with the result dropped. The idealization rewrote nothing, so `preserves` is trivial.
-/
import proofs.«145354_j15135464751187_2_alg».proof.Defs
import proofs.«145354_j15135464751187_2_alg».proof.Proof.Gen.Kernel
import proofs.«145354_j15135464751187_2_alg».proof.Proof.Gen.KernelIdeal
import proofs.«145354_j15135464751187_2_alg».proof.Proof.Gen.ReferenceIdeal
import proofs.«145354_j15135464751187_2_alg».proof.Proof.Gen.Pre_finite_inputs
import proofs.«145354_j15135464751187_2_alg».proof.Proof.Gen.ReferenceIdeal.Run
import proofs.«145354_j15135464751187_2_alg».proof.Proof.Gen.ReferenceIdeal.Read
import proofs.«145354_j15135464751187_2_alg».proof.Proof.Word.MainRun
import proofs.«145354_j15135464751187_2_alg».proof.Proof.MainRun
import proofs.«145354_j15135464751187_2_alg».proof.Proof.KernelSpec
import proofs.«145354_j15135464751187_2_alg».proof.Proof.RefSpec
import Idealize.ShloMosaic.Adequacy
import Idealize.ShloMosaic.Init

noncomputable section

namespace Cert.Proof

open Idealize.ShloMosaic Idealize.SL.Sem

/-- The word-level program runs and leaves its argument unchanged. -/
theorem frame_kernel : Cert.frame_Kernel := fun m ρ _ => Cert.Kernel.Hand.frame m ρ

/-- So does the idealized program, -/
theorem frame_ideal : Cert.frame_KernelIdeal := fun m ρ _ => Cert.KernelIdeal.Hand.frame m ρ

/-- and the reference: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories agreeing on the argument both programs end with the result array at the specification of it. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Result.result_eq m c), (h c).2⟩) (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.RefSpec.ref_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
